-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S8x2048x32x64 : Shape := ⟨4, ![8, 2048, 32, 64]⟩
abbrev S8x2048x32x128 : Shape := ⟨4, ![8, 2048, 32, 128]⟩
abbrev S8x2048x32x4 : Shape := ⟨4, ![8, 2048, 32, 4]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x2048x32x64 : S_.BroadcastsInDim S8x2048x32x64 (![] : Fin 0 → Fin S8x2048x32x64.rank)
  reducesTo_S8x2048x32x64_S_d0_1_2_3 : S8x2048x32x64.ReducesTo [0, 1, 2, 3] S_
  bcast_S_S8x2048x32x128 : S_.BroadcastsInDim S8x2048x32x128 (![] : Fin 0 → Fin S8x2048x32x128.rank)
  reducesTo_S8x2048x32x128_S_d0_1_2_3 : S8x2048x32x128.ReducesTo [0, 1, 2, 3] S_
  bcast_S_S8x2048x32x4 : S_.BroadcastsInDim S8x2048x32x4 (![] : Fin 0 → Fin S8x2048x32x4.rank)
  reducesTo_S8x2048x32x4_S_d0_1_2_3 : S8x2048x32x4.ReducesTo [0, 1, 2, 3] S_

variable [Facts]

def fn_part1 {F : FTy → Type} [FloatOps F] (main_arg4 : FVec F S8x2048x32x4 .f32) (main_v13 : IVec S_ 1) (main_v16 : IVec S8x2048x32x128 1) : IVec S_ 1 :=
  let main_c_5 : IVec S_ 1 := constantI S_ 1 1#1
  let main_v17 : IVec S_ 1 := (fun x v => Host.reduce IntOp.andi x v reducesTo_S8x2048x32x128_S_d0_1_2_3 h_S_) main_v16 main_c_5
  let main_v18 : IVec S_ 1 := andi main_v13 main_v17
  let main_v19 : FVec F S8x2048x32x4 .f32 := Host.absf main_arg4
  let main_cst_6 : FVec F S_ .f32 := constant S_ .f32 0x7F800000#32
  let main_v20 : FVec F S8x2048x32x4 .f32 := broadcastInDim S8x2048x32x4 ![] bcast_S_S8x2048x32x4 main_cst_6
  let main_v21 : IVec S8x2048x32x4 1 := cmpf .olt main_v19 main_v20
  let main_c_7 : IVec S_ 1 := constantI S_ 1 1#1
  let main_v22 : IVec S_ 1 := (fun x v => Host.reduce IntOp.andi x v reducesTo_S8x2048x32x4_S_d0_1_2_3 h_S_) main_v21 main_c_7
  let main_v23 : IVec S_ 1 := andi main_v18 main_v22
  main_v23

def fn {F : FTy → Type} [FloatOps F] (main_arg0 : FVec F S8x2048x64 .f32) (main_arg1 : FVec F S8x2048x64 .f32) (main_arg2 : FVec F S8x2048x32x64 .f32) (main_arg3 : FVec F S8x2048x32x128 .f32) (main_arg4 : FVec F S8x2048x32x4 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  let main_v9 : FVec F S8x2048x32x64 .f32 := Host.absf main_arg2
  let main_cst_2 : FVec F S_ .f32 := constant S_ .f32 0x7F800000#32
  let main_v10 : FVec F S8x2048x32x64 .f32 := broadcastInDim S8x2048x32x64 ![] bcast_S_S8x2048x32x64 main_cst_2
  let main_v11 : IVec S8x2048x32x64 1 := cmpf .olt main_v9 main_v10
  let main_c_3 : IVec S_ 1 := constantI S_ 1 1#1
  let main_v12 : IVec S_ 1 := (fun x v => Host.reduce IntOp.andi x v reducesTo_S8x2048x32x64_S_d0_1_2_3 h_S_) main_v11 main_c_3
  let main_v13 : IVec S_ 1 := andi main_v8 main_v12
  let main_v14 : FVec F S8x2048x32x128 .f32 := Host.absf main_arg3
  let main_cst_4 : FVec F S_ .f32 := constant S_ .f32 0x7F800000#32
  let main_v15 : FVec F S8x2048x32x128 .f32 := broadcastInDim S8x2048x32x128 ![] bcast_S_S8x2048x32x128 main_cst_4
  let main_v16 : IVec S8x2048x32x128 1 := cmpf .olt main_v14 main_v15
  fn_part1 (F := F) main_arg4 main_v13 main_v16
-- ==== Kernel.lean ====
abbrev S8x2048x64 : Shape := ⟨3, ![8, 2048, 64]⟩
abbrev S8x2048x32x64 : Shape := ⟨4, ![8, 2048, 32, 64]⟩
abbrev S8x2048x32x128 : Shape := ⟨4, ![8, 2048, 32, 128]⟩
abbrev S8x2048x32x4 : Shape := ⟨4, ![8, 2048, 32, 4]⟩
abbrev S8x2048x128 : Shape := ⟨3, ![8, 2048, 128]⟩
abbrev S8x2048x32x16 : Shape := ⟨4, ![8, 2048, 32, 16]⟩
abbrev S1x256x64 : Shape := ⟨3, ![1, 256, 64]⟩
abbrev S1x256x32x64 : Shape := ⟨4, ![1, 256, 32, 64]⟩
abbrev S1x256x32x128 : Shape := ⟨4, ![1, 256, 32, 128]⟩
abbrev S1x256x32x4 : Shape := ⟨4, ![1, 256, 32, 4]⟩
abbrev S1x256x128 : Shape := ⟨3, ![1, 256, 128]⟩
abbrev S1x256x32x16 : Shape := ⟨4, ![1, 256, 32, 16]⟩
abbrev S256x64 : Shape := ⟨2, ![256, 64]⟩
abbrev S256x4x16 : Shape := ⟨3, ![256, 4, 16]⟩
abbrev S256x32x64 : Shape := ⟨3, ![256, 32, 64]⟩
abbrev S256x32x4x16 : Shape := ⟨4, ![256, 32, 4, 16]⟩
abbrev S256x32x128 : Shape := ⟨3, ![256, 32, 128]⟩
abbrev S256x32x8x16 : Shape := ⟨4, ![256, 32, 8, 16]⟩
abbrev S256x32x4 : Shape := ⟨3, ![256, 32, 4]⟩
abbrev S256x1x4x16 : Shape := ⟨4, ![256, 1, 4, 16]⟩
abbrev S256x16 : Shape := ⟨2, ![256, 16]⟩
abbrev S256x1x1x16 : Shape := ⟨4, ![256, 1, 1, 16]⟩
abbrev S256x32x4x1 : Shape := ⟨4, ![256, 32, 4, 1]⟩
abbrev S256x32x16 : Shape := ⟨3, ![256, 32, 16]⟩
abbrev S256x1x16 : Shape := ⟨3, ![256, 1, 16]⟩
abbrev S256x32x1x16 : Shape := ⟨4, ![256, 32, 1, 16]⟩
abbrev S256x8x16 : Shape := ⟨3, ![256, 8, 16]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x32x64, .f32⟩
  | .hbm, ⟨3, _⟩ => ⟨S8x2048x32x128, .f32⟩
  | .hbm, ⟨4, _⟩ => ⟨S8x2048x32x4, .f32⟩
  | .hbm, ⟨5, _⟩ => ⟨S8x2048x128, .f32⟩
  | .hbm, ⟨6, _⟩ => ⟨S8x2048x32x16, .f32⟩
  | .local _ .vmem, ⟨0, _⟩ => ⟨S1x256x64, .f32⟩
  | .local _ .vmem, ⟨1, _⟩ => ⟨S1x256x64, .f32⟩
  | .local _ .vmem, ⟨2, _⟩ => ⟨S1x256x64, .f32⟩
  | .local _ .vmem, ⟨3, _⟩ => ⟨S1x256x64, .f32⟩
  | .local _ .vmem, ⟨4, _⟩ => ⟨S1x256x32x64, .f32⟩
  | .local _ .vmem, ⟨5, _⟩ => ⟨S1x256x32x64, .f32⟩
  | .local _ .vmem, ⟨6, _⟩ => ⟨S1x256x32x128, .f32⟩
  | .local _ .vmem, ⟨7, _⟩ => ⟨S1x256x32x128, .f32⟩
  | .local _ .vmem, ⟨8, _⟩ => ⟨S1x256x32x4, .f32⟩
  | .local _ .vmem, ⟨9, _⟩ => ⟨S1x256x32x4, .f32⟩
  | .local _ .vmem, ⟨10, _⟩ => ⟨S1x256x128, .f32⟩
  | .local _ .vmem, ⟨11, _⟩ => ⟨S1x256x128, .f32⟩
  | .local _ .vmem, ⟨12, _⟩ => ⟨S1x256x32x16, .f32⟩
  | .local _ .vmem, ⟨13, _⟩ => ⟨S1x256x32x16, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x32x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x32x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S256x4x16 : S256x64.ShapeCasts S256x4x16
  inb_S1x256x32x64_S1x256x32x64_0_0_0_0 : ∀ a, (![0, 0, 0, 0] : Fin 4 → Nat) a + S1x256x32x64.size a ≤ S1x256x32x64.size a
  h_S1x256x32x64 : 0 < S1x256x32x64.numel
  shapeCasts_S1x256x32x64_S256x32x64 : S1x256x32x64.ShapeCasts S256x32x64
  shapeCasts_S256x32x64_S256x32x4x16 : S256x32x64.ShapeCasts S256x32x4x16
  inb_S1x256x32x128_S1x256x32x128_0_0_0_0 : ∀ a, (![0, 0, 0, 0] : Fin 4 → Nat) a + S1x256x32x128.size a ≤ S1x256x32x128.size a
  h_S1x256x32x128 : 0 < S1x256x32x128.numel
  shapeCasts_S1x256x32x128_S256x32x128 : S1x256x32x128.ShapeCasts S256x32x128
  shapeCasts_S256x32x128_S256x32x8x16 : S256x32x128.ShapeCasts S256x32x8x16
  inb_S1x256x32x4_S1x256x32x4_0_0_0_0 : ∀ a, (![0, 0, 0, 0] : Fin 4 → Nat) a + S1x256x32x4.size a ≤ S1x256x32x4.size a
  h_S1x256x32x4 : 0 < S1x256x32x4.numel
  shapeCasts_S1x256x32x4_S256x32x4 : S1x256x32x4.ShapeCasts S256x32x4
  iota_S256x32x4x16_d1_w32 : S256x32x4x16.Iotas .tc 32 [1]
  shapeCasts_S256x4x16_S256x1x4x16 : S256x4x16.ShapeCasts S256x1x4x16
  shapeCasts_S256x1x4x16_S256x1x4x16 : S256x1x4x16.ShapeCasts S256x1x4x16
  broadcasts_S256x1x4x16_S256x32x4x16 : S256x1x4x16.Broadcasts S256x32x4x16
  reduces_S256x32x4x16_S256x16 : S256x32x4x16.Reduces [1, 2] S256x16
  shapeCasts_S256x16_S256x1x1x16 : S256x16.ShapeCasts S256x1x1x16
  broadcasts_S256x1x1x16_S256x32x4x16 : S256x1x1x16.Broadcasts S256x32x4x16
  shapeCasts_S256x32x4_S256x32x4x1 : S256x32x4.ShapeCasts S256x32x4x1
  broadcasts_S256x32x4x1_S256x32x4x16 : S256x32x4x1.Broadcasts S256x32x4x16
  reduces_S256x32x4x16_S256x32x16 : S256x32x4x16.Reduces [2] S256x32x16
  reduces_S256x32x16_S256x16 : S256x32x16.Reduces [1] S256x16
  shapeCasts_S256x16_S256x1x16 : S256x16.ShapeCasts S256x1x16
  broadcasts_S256x1x16_S256x32x16 : S256x1x16.Broadcasts S256x32x16
  shapeCasts_S256x32x16_S256x32x1x16 : S256x32x16.ShapeCasts S256x32x1x16
  broadcasts_S256x32x1x16_S256x32x8x16 : S256x32x1x16.Broadcasts S256x32x8x16
  reduces_S256x32x8x16_S256x8x16 : S256x32x8x16.Reduces [1] S256x8x16
  shapeCasts_S256x8x16_S256x128 : S256x8x16.ShapeCasts S256x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  inb_S1x256x32x16_S1x256x32x16_0_0_0_0 : ∀ a, (![0, 0, 0, 0] : Fin 4 → Nat) a + S1x256x32x16.size a ≤ S1x256x32x16.size a
  h_S1x256x32x16 : 0 < S1x256x32x16.numel
  shapeCasts_S1x256x32x16_S256x32x16 : S1x256x32x16.ShapeCasts S256x32x16
  shapeCasts_S256x32x16_S1x256x32x16 : S256x32x16.ShapeCasts S1x256x32x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S8x2048x64.size a
  hwx0_0 : ∀ i : grid0.Coords, EltTy.bits .f32 = 32 ∨ (Rect.block (s := S8x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S8x2048x64.size a
  hwx0_1 : ∀ i : grid0.Coords, EltTy.bits .f32 = 32 ∨ (Rect.block (s := S8x2048x64) S1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x32x64.size a ≤ S8x2048x32x64.size a
  hwx0_2 : ∀ i : grid0.Coords, EltTy.bits .f32 = 32 ∨ (Rect.block (s := S8x2048x32x64) S1x256x32x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x32x128.size a ≤ S8x2048x32x128.size a
  hwx0_3 : ∀ i : grid0.Coords, EltTy.bits .f32 = 32 ∨ (Rect.block (s := S8x2048x32x128) S1x256x32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x32x4.size a ≤ S8x2048x32x4.size a
  hwx0_4 : ∀ i : grid0.Coords, EltTy.bits .f32 = 32 ∨ (Rect.block (s := S8x2048x32x4) S1x256x32x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x128.size a ≤ S8x2048x128.size a
  hwx0_5 : ∀ i : grid0.Coords, EltTy.bits .f32 = 32 ∨ (Rect.block (s := S8x2048x128) S1x256x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x32x16.size a ≤ S8x2048x32x16.size a
  hwx0_6 : ∀ i : grid0.Coords, EltTy.bits .f32 = 32 ∨ (Rect.block (s := S8x2048x32x16) S1x256x32x16.size (cc0_transform_6 i) (hinb0_6 i)).WholeWords (EltTy.packing .f32)

variable [Facts₀]

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x32x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256x32x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x256x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x256x32x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S8x2048x32x64 : Shape := ⟨4, ![8, 2048, 32, 64]⟩
abbrev S8x2048x32x128 : Shape := ⟨4, ![8, 2048, 32, 128]⟩
abbrev S8x2048x32x4 : Shape := ⟨4, ![8, 2048, 32, 4]⟩
abbrev S8x2048x4x16 : Shape := ⟨4, ![8, 2048, 4, 16]⟩
abbrev S8x2048x32x4x16 : Shape := ⟨5, ![8, 2048, 32, 4, 16]⟩
abbrev S8x2048x32x8x16 : Shape := ⟨5, ![8, 2048, 32, 8, 16]⟩
abbrev S_ : Shape := ⟨0, ![]⟩
abbrev S1 : Shape := ⟨1, ![1]⟩
abbrev S8x2048x1x4x16 : Shape := ⟨5, ![8, 2048, 1, 4, 16]⟩
abbrev S8x2048x16 : Shape := ⟨3, ![8, 2048, 16]⟩
abbrev S8x2048x1x1x16 : Shape := ⟨5, ![8, 2048, 1, 1, 16]⟩
abbrev S8x2048x32x4x1 : Shape := ⟨5, ![8, 2048, 32, 4, 1]⟩
abbrev S8x2048x32x16 : Shape := ⟨4, ![8, 2048, 32, 16]⟩
abbrev S8x2048x1x16 : Shape := ⟨4, ![8, 2048, 1, 16]⟩
abbrev S8x2048x32x1x16 : Shape := ⟨5, ![8, 2048, 32, 1, 16]⟩
abbrev S8x2048x8x16 : Shape := ⟨4, ![8, 2048, 8, 16]⟩
abbrev S8x2048x128 : Shape := ⟨3, ![8, 2048, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x32x64, .f32⟩
  | .hbm, ⟨3, _⟩ => ⟨S8x2048x32x128, .f32⟩
  | .hbm, ⟨4, _⟩ => ⟨S8x2048x32x4, .f32⟩
  | .hbm, ⟨5, _⟩ => ⟨S8x2048x4x16, .f32⟩
  | .hbm, ⟨6, _⟩ => ⟨S8x2048x4x16, .f32⟩
  | .hbm, ⟨7, _⟩ => ⟨S8x2048x32x4x16, .f32⟩
  | .hbm, ⟨8, _⟩ => ⟨S8x2048x32x8x16, .f32⟩
  | .hbm, ⟨9, _⟩ => ⟨S_, .i32⟩
  | .hbm, ⟨10, _⟩ => ⟨S1, .i32⟩
  | .hbm, ⟨11, _⟩ => ⟨S8x2048x32x4x16, .f32⟩
  | .hbm, ⟨12, _⟩ => ⟨S_, .f32⟩
  | .hbm, ⟨13, _⟩ => ⟨S8x2048x4x16, .f32⟩
  | .hbm, ⟨14, _⟩ => ⟨S8x2048x4x16, .f32⟩
  | .hbm, ⟨15, _⟩ => ⟨S8x2048x1x4x16, .f32⟩
  | .hbm, ⟨16, _⟩ => ⟨S8x2048x32x4x16, .f32⟩
  | .hbm, ⟨17, _⟩ => ⟨S8x2048x32x4x16, .f32⟩
  | .hbm, ⟨18, _⟩ => ⟨S_, .f32⟩
  | .hbm, ⟨19, _⟩ => ⟨S8x2048x16, .f32⟩
  | .hbm, ⟨20, _⟩ => ⟨S8x2048x1x1x16, .f32⟩
  | .hbm, ⟨21, _⟩ => ⟨S8x2048x32x4x16, .f32⟩
  | .hbm, ⟨22, _⟩ => ⟨S8x2048x32x4x16, .f32⟩
  | .hbm, ⟨23, _⟩ => ⟨S8x2048x32x4x1, .f32⟩
  | .hbm, ⟨24, _⟩ => ⟨S8x2048x32x4x16, .f32⟩
  | .hbm, ⟨25, _⟩ => ⟨S8x2048x32x4x16, .f32⟩
  | .hbm, ⟨26, _⟩ => ⟨S8x2048x32x4x16, .f32⟩
  | .hbm, ⟨27, _⟩ => ⟨S_, .f32⟩
  | .hbm, ⟨28, _⟩ => ⟨S8x2048x32x16, .f32⟩
  | .hbm, ⟨29, _⟩ => ⟨S8x2048x32x16, .f32⟩
  | .hbm, ⟨30, _⟩ => ⟨S_, .f32⟩
  | .hbm, ⟨31, _⟩ => ⟨S8x2048x16, .f32⟩
  | .hbm, ⟨32, _⟩ => ⟨S8x2048x1x16, .f32⟩
  | .hbm, ⟨33, _⟩ => ⟨S_, .f32⟩
  | .hbm, ⟨34, _⟩ => ⟨S8x2048x1x16, .f32⟩
  | .hbm, ⟨35, _⟩ => ⟨S8x2048x1x16, .f32⟩
  | .hbm, ⟨36, _⟩ => ⟨S8x2048x32x16, .f32⟩
  | .hbm, ⟨37, _⟩ => ⟨S8x2048x32x16, .f32⟩
  | .hbm, ⟨38, _⟩ => ⟨S8x2048x32x1x16, .f32⟩
  | .hbm, ⟨39, _⟩ => ⟨S8x2048x32x8x16, .f32⟩
  | .hbm, ⟨40, _⟩ => ⟨S8x2048x32x8x16, .f32⟩
  | .hbm, ⟨41, _⟩ => ⟨S_, .f32⟩
  | .hbm, ⟨42, _⟩ => ⟨S8x2048x8x16, .f32⟩
  | .hbm, ⟨43, _⟩ => ⟨S8x2048x128, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  shapeCasts_S8x2048x64_S8x2048x4x16 : S8x2048x64.ShapeCasts S8x2048x4x16
  shapeCasts_S8x2048x32x64_S8x2048x32x4x16 : S8x2048x32x64.ShapeCasts S8x2048x32x4x16
  shapeCasts_S8x2048x32x128_S8x2048x32x8x16 : S8x2048x32x128.ShapeCasts S8x2048x32x8x16
  bcast_S_S1 : S_.BroadcastsInDim S1 (![] : Fin 0 → Fin S1.rank)
  bcast_S_S8x2048x4x16 : S_.BroadcastsInDim S8x2048x4x16 (![] : Fin 0 → Fin S8x2048x4x16.rank)
  bcast_S8x2048x4x16_S8x2048x1x4x16_0_1_3_4 : S8x2048x4x16.BroadcastsInDim S8x2048x1x4x16 (![0, 1, 3, 4] : Fin 4 → Fin S8x2048x1x4x16.rank)
  bcast_S8x2048x1x4x16_S8x2048x32x4x16_0_1_2_3_4 : S8x2048x1x4x16.BroadcastsInDim S8x2048x32x4x16 (![0, 1, 2, 3, 4] : Fin 5 → Fin S8x2048x32x4x16.rank)
  reducesTo_S8x2048x32x4x16_S8x2048x16_d2_3 : S8x2048x32x4x16.ReducesTo [2, 3] S8x2048x16
  h_S_ : 0 < S_.numel
  bcast_S8x2048x16_S8x2048x1x1x16_0_1_4 : S8x2048x16.BroadcastsInDim S8x2048x1x1x16 (![0, 1, 4] : Fin 3 → Fin S8x2048x1x1x16.rank)
  bcast_S8x2048x1x1x16_S8x2048x32x4x16_0_1_2_3_4 : S8x2048x1x1x16.BroadcastsInDim S8x2048x32x4x16 (![0, 1, 2, 3, 4] : Fin 5 → Fin S8x2048x32x4x16.rank)
  bcast_S8x2048x32x4_S8x2048x32x4x1_0_1_2_3 : S8x2048x32x4.BroadcastsInDim S8x2048x32x4x1 (![0, 1, 2, 3] : Fin 4 → Fin S8x2048x32x4x1.rank)
  bcast_S8x2048x32x4x1_S8x2048x32x4x16_0_1_2_3_4 : S8x2048x32x4x1.BroadcastsInDim S8x2048x32x4x16 (![0, 1, 2, 3, 4] : Fin 5 → Fin S8x2048x32x4x16.rank)
  reducesTo_S8x2048x32x4x16_S8x2048x32x16_d3 : S8x2048x32x4x16.ReducesTo [3] S8x2048x32x16
  reducesTo_S8x2048x32x16_S8x2048x16_d2 : S8x2048x32x16.ReducesTo [2] S8x2048x16
  bcast_S8x2048x16_S8x2048x1x16_0_1_3 : S8x2048x16.BroadcastsInDim S8x2048x1x16 (![0, 1, 3] : Fin 3 → Fin S8x2048x1x16.rank)
  bcast_S_S8x2048x1x16 : S_.BroadcastsInDim S8x2048x1x16 (![] : Fin 0 → Fin S8x2048x1x16.rank)
  bcast_S8x2048x1x16_S8x2048x32x16_0_1_2_3 : S8x2048x1x16.BroadcastsInDim S8x2048x32x16 (![0, 1, 2, 3] : Fin 4 → Fin S8x2048x32x16.rank)
  bcast_S8x2048x32x16_S8x2048x32x1x16_0_1_2_4 : S8x2048x32x16.BroadcastsInDim S8x2048x32x1x16 (![0, 1, 2, 4] : Fin 4 → Fin S8x2048x32x1x16.rank)
  bcast_S8x2048x32x1x16_S8x2048x32x8x16_0_1_2_3_4 : S8x2048x32x1x16.BroadcastsInDim S8x2048x32x8x16 (![0, 1, 2, 3, 4] : Fin 5 → Fin S8x2048x32x8x16.rank)
  reducesTo_S8x2048x32x8x16_S8x2048x8x16_d2 : S8x2048x32x8x16.ReducesTo [2] S8x2048x8x16
  shapeCasts_S8x2048x8x16_S8x2048x128 : S8x2048x8x16.ShapeCasts S8x2048x128
  scatter_S8x2048x32x4x16_S1_S8x2048x4x16_0123_2_2_0_wf : ScatterDims.WF S8x2048x32x4x16 S1 S8x2048x4x16 [0, 1, 2, 3] [2] [2] 0

variable [Facts₀]

def scatter_S8x2048x32x4x16_S1_S8x2048x4x16_0123_2_2_0 : ScatterDims S8x2048x32x4x16 S1 S8x2048x4x16 where
  updateWindowDims := [0, 1, 2, 3]
  insertedWindowDims := [2]
  scatterDimsToOperandDims := [2]
  indexVectorDim := 0
  wf := scatter_S8x2048x32x4x16_S1_S8x2048x4x16_0123_2_2_0_wf

class Facts : Prop extends Facts₀ where

variable [Facts]
-- ==== Proof.RowSpec.lean ====
/-
  What one position (b, l) of the graph-attention readout computes, as functions of that position's rows alone.

  At a position the inputs are: the temperatures `be` and the self-attention scores `sa` (64 lanes each, lane
  g·16 + h for head g and channel h), the neighbour scores `ac` (32 neighbours × 64 lanes), the neighbours' outputs `nd`
  (32 × 128 lanes, lane f·16 + h for feature f) and the graph weights `gw` (32 × 4). The computation:

    scaled k g h = (ac k (g,h) [+ sa (g,h) when k = 0]) · (be (g,h) + ε)
    rowMax h     = the maximum of scaled k g h over all (k, g), from −∞
    weight k g h = gw k g · exp (scaled k g h − rowMax h)
    mixed k h    = Σ_g weight k g h
    coeff k h    = mixed k h / (Σ_k' |mixed k' h| + ε)
    readout f h  = Σ_k nd k (f,h) · coeff k h

  All of it on the extended reals; ε and −∞ are the f32 words the two programs share, never evaluated.
-/
import Idealize.ShloMosaic.PureOps.Ideal
import Idealize.ShloMosaic.PureOps.Ideal.Laws

noncomputable section

namespace Cert.RowSpec

open Idealize.ShloMosaic

/-- Lane of head `g`, channel `h` in a 64-lane row. -/
abbrev gh (g : Fin 4) (h : Fin 16) : Fin 64 := ⟨g.val * 16 + h.val, by have := g.isLt; have := h.isLt; omega⟩
/-- Lane of feature `f`, channel `h` in a 128-lane row. -/
abbrev fh (f : Fin 8) (h : Fin 16) : Fin 128 := ⟨f.val * 16 + h.val, by have := f.isLt; have := h.isLt; omega⟩

abbrev eps : EReal := Ideal.ofBits .f32 0x358637BD#32
abbrev ninf : EReal := Ideal.ofBits .f32 0xFF800000#32

def scaled (be sa : Fin 64 → EReal) (ac : Fin 32 → Fin 64 → EReal) (k : Fin 32) (g : Fin 4) (h : Fin 16) : EReal :=
  (if k.val = 0 then ac k (gh g h) + sa (gh g h) else ac k (gh g h)) * (be (gh g h) + eps)

def rowMax (be sa : Fin 64 → EReal) (ac : Fin 32 → Fin 64 → EReal) (h : Fin 16) : EReal :=
  (Finset.univ : Finset (Fin 32 × Fin 4)).fold max ninf (fun kg => scaled be sa ac kg.1 kg.2 h)

def weight (be sa : Fin 64 → EReal) (ac : Fin 32 → Fin 64 → EReal) (gw : Fin 32 → Fin 4 → EReal)
    (k : Fin 32) (g : Fin 4) (h : Fin 16) : EReal :=
  gw k g * Ideal.exp (scaled be sa ac k g h - rowMax be sa ac h)

def mixed (be sa : Fin 64 → EReal) (ac : Fin 32 → Fin 64 → EReal) (gw : Fin 32 → Fin 4 → EReal)
    (k : Fin 32) (h : Fin 16) : EReal :=
  ∑ g : Fin 4, weight be sa ac gw k g h

def coeff (be sa : Fin 64 → EReal) (ac : Fin 32 → Fin 64 → EReal) (gw : Fin 32 → Fin 4 → EReal)
    (k : Fin 32) (h : Fin 16) : EReal :=
  Ideal.div (mixed be sa ac gw k h)
    ((∑ k' : Fin 32, max (mixed be sa ac gw k' h) (-(mixed be sa ac gw k' h))) + eps)

def readout (be sa : Fin 64 → EReal) (ac : Fin 32 → Fin 64 → EReal) (nd : Fin 32 → Fin 128 → EReal)
    (gw : Fin 32 → Fin 4 → EReal) (f : Fin 8) (h : Fin 16) : EReal :=
  ∑ k : Fin 32, nd k (fh f h) * coeff be sa ac gw k h

end Cert.RowSpec

end
-- ==== Proof.LibFoldReindex.lean ====
/-
  A fold of a commutative, associative operation over the fibre of a map, re-indexed.

  Reductions over several axes come out as folds over the set of source indices that drop to a given result index.
  When an injective map `e` from another finite type enumerates exactly that set, the fold is the fold over the whole
  of that type of the source read through `e`: the order of a fold over a finite set is immaterial.
-/
import Mathlib.Data.Finset.Fold
import Mathlib.Data.Fintype.Basic

namespace Idealize.ShloMosaic.FoldReindex

theorem fold_filter_eq_fold_univ {α ι κ β : Type} [Fintype ι] [DecidableEq ι] [Fintype κ]
    (op : α → α → α) [Std.Commutative op] [Std.Associative op] (init : α) (x : ι → α)
    (drop : ι → β) (j : β) [DecidablePred fun i => drop i = j] (e : κ → ι) (he : Function.Injective e)
    (hmem : ∀ i, drop i = j ↔ ∃ k, e k = i) :
    (Finset.univ.filter fun i => drop i = j).fold op init x = (Finset.univ : Finset κ).fold op init (fun k => x (e k)) := by
  have hs : (Finset.univ.filter fun i => drop i = j) = Finset.univ.image e := by
    ext i
    simp only [Finset.mem_filter, Finset.mem_univ, true_and, Finset.mem_image]
    exact hmem i
  rw [hs, Finset.fold_image (fun _ _ _ _ h => he h)]
  rfl

end Idealize.ShloMosaic.FoldReindex
-- ==== Proof.KernelLayout.lean ====
/-
  The kernel body's layout steps and reductions, each read at an index given by its coordinates.

  A block of 256 positions arrives as [1, 256, lanes]; the body drops the unit axis and splits the lanes into
  (head, channel) or (feature, channel), spreads per-position values along the neighbour, head, channel or feature axes,
  and reduces over the head axis, the neighbour axis, or neighbours and heads together. Each lemma says which element of
  the operand an element of the result is; the reductions are sums, or a maximum, over the reduced coordinates.
-/
import proofs.«169955_j1666447311232_1_alg».proof.KernelIdeal
import proofs.«169955_j1666447311232_1_alg».proof.Proof.RowSpec
import proofs.«169955_j1666447311232_1_alg».proof.Proof.LibFoldReindex
import Idealize.ShloMosaic.Lib.ValueIdx
import Idealize.ShloMosaic.Lib.Pipeline.Value
import Idealize.ShloMosaic.PureOps.Ideal.Laws

noncomputable section

namespace Cert.KernelLayout

open Idealize.ShloMosaic Idealize.ShloMosaic.ValueIdx Cert.KernelIdeal Cert.RowSpec

variable {α : Type}

/-! ## Dropping the block's unit axis and splitting the lanes -/

/-- A [1,256,64] block viewed [256,4,16]: position r, head g, channel h is lane g·16 + h of row r. -/
theorem split64 (P : S1x256x64.Idx → α) (h1 : S1x256x64.ShapeCasts S256x64) (h2 : S256x64.ShapeCasts S256x4x16)
    (r : Fin 256) (g : Fin 4) (h : Fin 16) :
    shapeCast S256x4x16 (shapeCast S256x64 P h1) h2 (ix3 r g h) = P (ix3 0 r (gh g h)) := by
  have hr := r.isLt; have hg := g.isLt; have hh := h.isLt
  refine (shapeCast_apply _ h2 (ix3 r g h) (ix2 r (gh g h)) ?_).trans
    (shapeCast_apply _ h1 (ix2 r (gh g h)) (ix3 0 r (gh g h)) ?_)
  · rw [Shape.rowMajor_val_two, Shape.rowMajor_val_three]
    show r.val * 64 + (g.val * 16 + h.val) = (r.val * 4 + g.val) * 16 + h.val
    omega
  · rw [Shape.rowMajor_val_three, Shape.rowMajor_val_two]
    show (0 * 256 + r.val) * 64 + (g.val * 16 + h.val) = r.val * 64 + (g.val * 16 + h.val)
    omega

/-- A [1,256,32,64] block viewed [256,32,4,16]. -/
theorem split32x64 (P : S1x256x32x64.Idx → α) (h1 : S1x256x32x64.ShapeCasts S256x32x64)
    (h2 : S256x32x64.ShapeCasts S256x32x4x16) (r : Fin 256) (k : Fin 32) (g : Fin 4) (h : Fin 16) :
    shapeCast S256x32x4x16 (shapeCast S256x32x64 P h1) h2 (ix4 r k g h) = P (ix4 0 r k (gh g h)) := by
  have hr := r.isLt; have hk := k.isLt; have hg := g.isLt; have hh := h.isLt
  refine (shapeCast_apply _ h2 (ix4 r k g h) (ix3 r k (gh g h)) ?_).trans
    (shapeCast_apply _ h1 (ix3 r k (gh g h)) (ix4 0 r k (gh g h)) ?_)
  · rw [Shape.rowMajor_val_three, Shape.rowMajor_val_four]
    show (r.val * 32 + k.val) * 64 + (g.val * 16 + h.val) = ((r.val * 32 + k.val) * 4 + g.val) * 16 + h.val
    omega
  · rw [Shape.rowMajor_val_four, Shape.rowMajor_val_three]
    show ((0 * 256 + r.val) * 32 + k.val) * 64 + (g.val * 16 + h.val) = (r.val * 32 + k.val) * 64 + (g.val * 16 + h.val)
    omega

/-- A [1,256,32,128] block viewed [256,32,8,16]. -/
theorem split32x128 (P : S1x256x32x128.Idx → α) (h1 : S1x256x32x128.ShapeCasts S256x32x128)
    (h2 : S256x32x128.ShapeCasts S256x32x8x16) (r : Fin 256) (k : Fin 32) (f : Fin 8) (h : Fin 16) :
    shapeCast S256x32x8x16 (shapeCast S256x32x128 P h1) h2 (ix4 r k f h) = P (ix4 0 r k (fh f h)) := by
  have hr := r.isLt; have hk := k.isLt; have hf := f.isLt; have hh := h.isLt
  refine (shapeCast_apply _ h2 (ix4 r k f h) (ix3 r k (fh f h)) ?_).trans
    (shapeCast_apply _ h1 (ix3 r k (fh f h)) (ix4 0 r k (fh f h)) ?_)
  · rw [Shape.rowMajor_val_three, Shape.rowMajor_val_four]
    show (r.val * 32 + k.val) * 128 + (f.val * 16 + h.val) = ((r.val * 32 + k.val) * 8 + f.val) * 16 + h.val
    omega
  · rw [Shape.rowMajor_val_four, Shape.rowMajor_val_three]
    show ((0 * 256 + r.val) * 32 + k.val) * 128 + (f.val * 16 + h.val) = (r.val * 32 + k.val) * 128 + (f.val * 16 + h.val)
    omega

/-- A [1,256,32,4] block viewed [256,32,4]. -/
theorem drop32x4 (P : S1x256x32x4.Idx → α) (h1 : S1x256x32x4.ShapeCasts S256x32x4)
    (r : Fin 256) (k : Fin 32) (g : Fin 4) :
    shapeCast S256x32x4 P h1 (ix3 r k g) = P (ix4 0 r k g) := by
  refine shapeCast_apply _ h1 (ix3 r k g) (ix4 0 r k g) ?_
  rw [Shape.rowMajor_val_four, Shape.rowMajor_val_three]
  show ((0 * 256 + r.val) * 32 + k.val) * 4 + g.val = (r.val * 32 + k.val) * 4 + g.val
  omega

/-! ## Spreading a per-position value along other axes -/

/-- [256,4,16] → [256,1,4,16] → every neighbour: the value at (r, g, h) whatever the neighbour. -/
theorem spread_k (v : S256x4x16.Idx → α) (hc : S256x4x16.ShapeCasts S256x1x4x16)
    (hb : S256x1x4x16.Broadcasts S256x32x4x16) (r : Fin 256) (k : Fin 32) (g : Fin 4) (h : Fin 16) :
    broadcastTo S256x32x4x16 (shapeCast S256x1x4x16 v hc) hb (ix4 r k g h) = v (ix3 r g h) := by
  refine (broadcastTo_apply _ hb (ix4 r k g h) (ix4 r 0 g h) (fun a => match a with
    | ⟨0, _⟩ => by show r.val = (if (256 : Nat) = 1 then 0 else r.val); rw [if_neg (by decide)]
    | ⟨1, _⟩ => by show 0 = (if (1 : Nat) = 1 then 0 else k.val); rw [if_pos rfl]
    | ⟨2, _⟩ => by show g.val = (if (4 : Nat) = 1 then 0 else g.val); rw [if_neg (by decide)]
    | ⟨3, _⟩ => by show h.val = (if (16 : Nat) = 1 then 0 else h.val); rw [if_neg (by decide)])).trans
    (shapeCast_apply _ hc (ix4 r 0 g h) (ix3 r g h) ?_)
  rw [Shape.rowMajor_val_three, Shape.rowMajor_val_four]
  show (r.val * 4 + g.val) * 16 + h.val = ((r.val * 1 + 0) * 4 + g.val) * 16 + h.val
  omega

/-- [256,16] → [256,1,1,16] → every neighbour and head: the value at (r, h). -/
theorem spread_kg (v : S256x16.Idx → α) (hc : S256x16.ShapeCasts S256x1x1x16)
    (hb : S256x1x1x16.Broadcasts S256x32x4x16) (r : Fin 256) (k : Fin 32) (g : Fin 4) (h : Fin 16) :
    broadcastTo S256x32x4x16 (shapeCast S256x1x1x16 v hc) hb (ix4 r k g h) = v (ix2 r h) := by
  refine (broadcastTo_apply _ hb (ix4 r k g h) (ix4 r 0 0 h) (fun a => match a with
    | ⟨0, _⟩ => by show r.val = (if (256 : Nat) = 1 then 0 else r.val); rw [if_neg (by decide)]
    | ⟨1, _⟩ => by show 0 = (if (1 : Nat) = 1 then 0 else k.val); rw [if_pos rfl]
    | ⟨2, _⟩ => by show 0 = (if (1 : Nat) = 1 then 0 else g.val); rw [if_pos rfl]
    | ⟨3, _⟩ => by show h.val = (if (16 : Nat) = 1 then 0 else h.val); rw [if_neg (by decide)])).trans
    (shapeCast_apply _ hc (ix4 r 0 0 h) (ix2 r h) ?_)
  rw [Shape.rowMajor_val_two, Shape.rowMajor_val_four]
  show r.val * 16 + h.val = ((r.val * 1 + 0) * 1 + 0) * 16 + h.val
  omega

/-- [256,32,4] → [256,32,4,1] → every channel: the value at (r, k, g). -/
theorem spread_h (v : S256x32x4.Idx → α) (hc : S256x32x4.ShapeCasts S256x32x4x1)
    (hb : S256x32x4x1.Broadcasts S256x32x4x16) (r : Fin 256) (k : Fin 32) (g : Fin 4) (h : Fin 16) :
    broadcastTo S256x32x4x16 (shapeCast S256x32x4x1 v hc) hb (ix4 r k g h) = v (ix3 r k g) := by
  refine (broadcastTo_apply _ hb (ix4 r k g h) (ix4 r k g 0) (fun a => match a with
    | ⟨0, _⟩ => by show r.val = (if (256 : Nat) = 1 then 0 else r.val); rw [if_neg (by decide)]
    | ⟨1, _⟩ => by show k.val = (if (32 : Nat) = 1 then 0 else k.val); rw [if_neg (by decide)]
    | ⟨2, _⟩ => by show g.val = (if (4 : Nat) = 1 then 0 else g.val); rw [if_neg (by decide)]
    | ⟨3, _⟩ => by show 0 = (if (1 : Nat) = 1 then 0 else h.val); rw [if_pos rfl])).trans
    (shapeCast_apply _ hc (ix4 r k g 0) (ix3 r k g) ?_)
  rw [Shape.rowMajor_val_three, Shape.rowMajor_val_four]
  show (r.val * 32 + k.val) * 4 + g.val = ((r.val * 32 + k.val) * 4 + g.val) * 1 + 0
  omega

/-- [256,1,16] → every neighbour: the value at (r, 0, h). -/
theorem spread_k3 (w : S256x1x16.Idx → α) (hb : S256x1x16.Broadcasts S256x32x16) (r : Fin 256) (k : Fin 32) (h : Fin 16) :
    broadcastTo S256x32x16 w hb (ix3 r k h) = w (ix3 r 0 h) :=
  broadcastTo_apply _ hb (ix3 r k h) (ix3 r 0 h) (fun a => match a with
    | ⟨0, _⟩ => by show r.val = (if (256 : Nat) = 1 then 0 else r.val); rw [if_neg (by decide)]
    | ⟨1, _⟩ => by show 0 = (if (1 : Nat) = 1 then 0 else k.val); rw [if_pos rfl]
    | ⟨2, _⟩ => by show h.val = (if (16 : Nat) = 1 then 0 else h.val); rw [if_neg (by decide)])

/-- [256,16] → [256,1,16]: the value at (r, h). -/
theorem keep_k3 (v : S256x16.Idx → α) (hc : S256x16.ShapeCasts S256x1x16) (r : Fin 256) (h : Fin 16) :
    shapeCast S256x1x16 v hc (ix3 r 0 h) = v (ix2 r h) := by
  refine shapeCast_apply _ hc (ix3 r 0 h) (ix2 r h) ?_
  rw [Shape.rowMajor_val_two, Shape.rowMajor_val_three]
  show r.val * 16 + h.val = (r.val * 1 + 0) * 16 + h.val
  omega

/-- [256,32,16] → [256,32,1,16] → every feature: the value at (r, k, h). -/
theorem spread_f (v : S256x32x16.Idx → α) (hc : S256x32x16.ShapeCasts S256x32x1x16)
    (hb : S256x32x1x16.Broadcasts S256x32x8x16) (r : Fin 256) (k : Fin 32) (f : Fin 8) (h : Fin 16) :
    broadcastTo S256x32x8x16 (shapeCast S256x32x1x16 v hc) hb (ix4 r k f h) = v (ix3 r k h) := by
  refine (broadcastTo_apply _ hb (ix4 r k f h) (ix4 r k 0 h) (fun a => match a with
    | ⟨0, _⟩ => by show r.val = (if (256 : Nat) = 1 then 0 else r.val); rw [if_neg (by decide)]
    | ⟨1, _⟩ => by show k.val = (if (32 : Nat) = 1 then 0 else k.val); rw [if_neg (by decide)]
    | ⟨2, _⟩ => by show 0 = (if (1 : Nat) = 1 then 0 else f.val); rw [if_pos rfl]
    | ⟨3, _⟩ => by show h.val = (if (16 : Nat) = 1 then 0 else h.val); rw [if_neg (by decide)])).trans
    (shapeCast_apply _ hc (ix4 r k 0 h) (ix3 r k h) ?_)
  rw [Shape.rowMajor_val_three, Shape.rowMajor_val_four]
  show (r.val * 32 + k.val) * 16 + h.val = ((r.val * 32 + k.val) * 1 + 0) * 16 + h.val
  omega

/-! ## The reductions, on the extended reals -/

/-- The sum over the head axis of a [256,32,4,16] vector. -/
theorem sum_heads (v : FVec Ideal S256x32x4x16 .f32) (hr : S256x32x4x16.Reduces [2] S256x32x16) (hφ : FKind.Formats .f32)
    (hacc : (0x00000000#32 : BitVec 32) = FKind.add.neutral .f32 hφ) (r : Fin 256) (k : Fin 32) (h : Fin 16) :
    multiReduction .add [2] S256x32x16 v 0x00000000#32 hr hφ hacc (ix3 r k h) = ∑ g : Fin 4, v (ix4 r k g h) := by
  refine (Ideal.multiReduction_add_single v 0x00000000#32 hr hφ hacc (ix3 r k h)).trans ?_
  refine Finset.sum_congr rfl fun g _ => congrArg v (funext fun a => Fin.ext ?_)
  match a with | ⟨0, _⟩ => rfl | ⟨1, _⟩ => rfl | ⟨2, _⟩ => rfl | ⟨3, _⟩ => rfl

/-- The sum over the neighbour axis of a [256,32,16] vector. -/
theorem sum_nbrs3 (v : FVec Ideal S256x32x16 .f32) (hr : S256x32x16.Reduces [1] S256x16) (hφ : FKind.Formats .f32)
    (hacc : (0x00000000#32 : BitVec 32) = FKind.add.neutral .f32 hφ) (r : Fin 256) (h : Fin 16) :
    multiReduction .add [1] S256x16 v 0x00000000#32 hr hφ hacc (ix2 r h) = ∑ k : Fin 32, v (ix3 r k h) := by
  refine (Ideal.multiReduction_add_single v 0x00000000#32 hr hφ hacc (ix2 r h)).trans ?_
  refine Finset.sum_congr rfl fun k _ => congrArg v (funext fun a => Fin.ext ?_)
  match a with | ⟨0, _⟩ => rfl | ⟨1, _⟩ => rfl | ⟨2, _⟩ => rfl

/-- The sum over the neighbour axis of a [256,32,8,16] vector. -/
theorem sum_nbrs4 (v : FVec Ideal S256x32x8x16 .f32) (hr : S256x32x8x16.Reduces [1] S256x8x16) (hφ : FKind.Formats .f32)
    (hacc : (0x00000000#32 : BitVec 32) = FKind.add.neutral .f32 hφ) (r : Fin 256) (f : Fin 8) (h : Fin 16) :
    multiReduction .add [1] S256x8x16 v 0x00000000#32 hr hφ hacc (ix3 r f h) = ∑ k : Fin 32, v (ix4 r k f h) := by
  refine (Ideal.multiReduction_add_single v 0x00000000#32 hr hφ hacc (ix3 r f h)).trans ?_
  refine Finset.sum_congr rfl fun k _ => congrArg v (funext fun a => Fin.ext ?_)
  match a with | ⟨0, _⟩ => rfl | ⟨1, _⟩ => rfl | ⟨2, _⟩ => rfl | ⟨3, _⟩ => rfl

/-- The maximum over neighbours and heads together of a [256,32,4,16] vector: the fold of `max` from −∞ over all
    (neighbour, head) pairs. -/
theorem max_nbrs_heads (v : FVec Ideal S256x32x4x16 .f32) (hr : S256x32x4x16.Reduces [1, 2] S256x16) (hφ : FKind.Formats .f32)
    (hacc : (0xFF800000#32 : BitVec 32) = FKind.maximumf.neutral .f32 hφ) (r : Fin 256) (h : Fin 16) :
    multiReduction .maximumf [1, 2] S256x16 v 0xFF800000#32 hr hφ hacc (ix2 r h)
      = (Finset.univ : Finset (Fin 32 × Fin 4)).fold max ninf (fun kg => v (ix4 r kg.1 kg.2 h)) := by
  refine (multiReduction_maximumf_eq_fold v 0xFF800000#32 hr hφ hacc (ix2 r h)).trans ?_
  refine FoldReindex.fold_filter_eq_fold_univ (FloatOps.maximumf (F := Ideal) (φ := .f32)) _ v hr.drop (ix2 r h)
    (fun kg : Fin 32 × Fin 4 => ix4 r kg.1 kg.2 h) ?_ ?_
  · intro a b e
    have e1 : (ix4 r a.1 a.2 h : S256x32x4x16.Idx) 1 = (ix4 r b.1 b.2 h : S256x32x4x16.Idx) 1 := congrFun e 1
    have e2 : (ix4 r a.1 a.2 h : S256x32x4x16.Idx) 2 = (ix4 r b.1 b.2 h : S256x32x4x16.Idx) 2 := congrFun e 2
    exact Prod.ext e1 e2
  · intro i
    have d0 : ((hr.drop i 0 : Fin 256) : Nat) = (i 0).val := hr.drop_apply_val_of_eq i 0 0
    have d1 : ((hr.drop i 1 : Fin 16) : Nat) = (i 3).val := hr.drop_apply_val_of_eq i 1 3
    constructor
    · intro e
      refine ⟨(i 1, i 2), funext fun a => Fin.ext ?_⟩
      have e0 : (hr.drop i 0 : Nat) = r.val := congrArg (fun j : S256x16.Idx => (j 0).val) e
      have e1 : (hr.drop i 1 : Nat) = h.val := congrArg (fun j : S256x16.Idx => (j 1).val) e
      match a with
      | ⟨0, _⟩ => show r.val = (i 0).val; omega
      | ⟨1, _⟩ => rfl
      | ⟨2, _⟩ => rfl
      | ⟨3, _⟩ => show h.val = (i 3).val; omega
    · rintro ⟨kg, rfl⟩
      refine funext fun b => Fin.ext ?_
      match b with
      | ⟨0, _⟩ => exact d0
      | ⟨1, _⟩ => exact d1

end Cert.KernelLayout

end
-- ==== Proof.KernelRows.lean ====
/-
  What the kernel's body computes from one block of 256 positions, read at an index: for the position r of the block
  the body's values are the functions of `RowSpec` of that position's rows of the loaded blocks.
-/
import proofs.«169955_j1666447311232_1_alg».proof.Proof.Gen.KernelIdeal.Skeleton
import proofs.«169955_j1666447311232_1_alg».proof.Proof.KernelLayout

noncomputable section

namespace Cert.KernelRows

open Idealize.ShloMosaic Idealize.ShloMosaic.ValueIdx Cert.KernelIdeal Cert.KernelIdeal.Gen Cert.RowSpec Cert.KernelLayout

/-- Row r of a loaded [1,256,64] block. -/
abbrev row64 (P : Vec Ideal S1x256x64 .f32) (r : Fin 256) : Fin 64 → EReal := fun c => P (ix3 0 r c)
/-- Row r of a loaded [1,256,32,64] block: neighbour by lane. -/
abbrev rows64 (P : Vec Ideal S1x256x32x64 .f32) (r : Fin 256) : Fin 32 → Fin 64 → EReal := fun k c => P (ix4 0 r k c)
/-- Row r of a loaded [1,256,32,128] block. -/
abbrev rows128 (P : Vec Ideal S1x256x32x128 .f32) (r : Fin 256) : Fin 32 → Fin 128 → EReal := fun k c => P (ix4 0 r k c)
/-- Row r of a loaded [1,256,32,4] block. -/
abbrev rows4 (P : Vec Ideal S1x256x32x4 .f32) (r : Fin 256) : Fin 32 → Fin 4 → EReal := fun k g => P (ix4 0 r k g)

theorem exp_apply {s : Shape} {φ : FTy} (a : FVec Ideal s φ) (i : s.Idx) : exp a i = Ideal.exp (a i) := rfl
theorem absf_apply {s : Shape} {φ : FTy} (a : FVec Ideal s φ) (i : s.Idx) : absf a i = max (a i) (-(a i)) := rfl

/-- The neighbour mask: the word comparing neighbour k's number with zero is set exactly for k = 0. -/
theorem mask_zero (k : Fin 32) {β : Type} (a b : β) :
    Scalar.select (IntOp.cmpi .eq (BitVec.ofNat 32 k.val) 0#32) a b = if k.val = 0 then a else b := by
  have hk := k.isLt
  unfold Scalar.select IntOp.cmpi
  by_cases h0 : k.val = 0
  · rw [if_pos h0, h0]; rfl
  · rw [if_neg h0]
    have hne : (BitVec.ofNat 32 k.val == 0#32) = false := by
      rw [beq_eq_false_iff_ne]
      intro e
      have := congrArg BitVec.toNat e
      simp only [BitVec.toNat_ofNat, BitVec.toNat_zero] at this
      omega
    simp only [hne]
    rfl

/-! ## The steps, over vectors known at the position's indices -/

/-- Scores plus the masked self score, times the shifted temperature: at (r, k, g, h) the scaled score of `RowSpec`,
    for any vectors that hold the position's values there. Adding the zero of the other neighbours changes nothing. -/
theorem scaled_of (A S B : FVec Ideal S256x32x4x16 .f32) (IO : IVec S256x32x4x16 32)
    (r : Fin 256) (k : Fin 32) (g : Fin 4) (h : Fin 16) (be sa : Fin 64 → EReal) (ac : Fin 32 → Fin 64 → EReal)
    (hA : A (ix4 r k g h) = ac k (gh g h)) (hS : S (ix4 r k g h) = sa (gh g h))
    (hB : B (ix4 r k g h) = be (gh g h) + eps) (hIO : IO (ix4 r k g h) = BitVec.ofNat 32 k.val) :
    mulf (addf A (select (cmpi .eq IO (broadcast S256x32x4x16 0#32)) S
      (broadcast S256x32x4x16 (Scalar.ofBits .f32 0x00000000#32)))) B (ix4 r k g h) = scaled be sa ac k g h := by
  show (A (ix4 r k g h) + Scalar.select (IntOp.cmpi .eq (IO (ix4 r k g h)) 0#32) (S (ix4 r k g h))
    (Ideal.ofBits .f32 0x00000000#32)) * B (ix4 r k g h) = _
  rw [hA, hS, hB, hIO, mask_zero, Ideal.ofBits_zero_f32]
  unfold scaled
  by_cases h0 : k.val = 0
  · rw [if_pos h0, if_pos h0]
  · rw [if_neg h0, if_neg h0, add_zero]

/-- Weights times the exponential of the score less the position's maximum over neighbours and heads. -/
theorem weight_of (GW SC : FVec Ideal S256x32x4x16 .f32) (hc : S256x16.ShapeCasts S256x1x1x16)
    (hb : S256x1x1x16.Broadcasts S256x32x4x16) (hr : S256x32x4x16.Reduces [1, 2] S256x16) (hφ : FKind.Formats .f32)
    (hacc : (0xFF800000#32 : BitVec 32) = FKind.maximumf.neutral .f32 hφ)
    (r : Fin 256) (k : Fin 32) (g : Fin 4) (h : Fin 16) (be sa : Fin 64 → EReal) (ac : Fin 32 → Fin 64 → EReal)
    (gw : Fin 32 → Fin 4 → EReal) (hGW : GW (ix4 r k g h) = gw k g)
    (hSC : ∀ (k' : Fin 32) (g' : Fin 4), SC (ix4 r k' g' h) = scaled be sa ac k' g' h) :
    mulf GW (exp (subf SC (broadcastTo S256x32x4x16 (shapeCast S256x1x1x16
      (multiReduction .maximumf [1, 2] S256x16 SC 0xFF800000#32 hr hφ hacc) hc) hb))) (ix4 r k g h)
      = weight be sa ac gw k g h := by
  rw [mulf_apply, exp_apply, subf_apply, hGW, hSC, spread_kg, max_nbrs_heads]
  unfold weight rowMax
  refine congrArg (fun f => gw k g * Ideal.exp (scaled be sa ac k g h - Finset.fold max ninf f Finset.univ)) ?_
  exact funext fun kg => hSC kg.1 kg.2

/-- The sum of the absolute values over the neighbours. -/
theorem abs_sum_nbrs (M : FVec Ideal S256x32x16 .f32) (hr : S256x32x16.Reduces [1] S256x16) (hφ : FKind.Formats .f32)
    (hacc : (0x00000000#32 : BitVec 32) = FKind.add.neutral .f32 hφ) (r : Fin 256) (h : Fin 16) :
    multiReduction .add [1] S256x16 (absf M) 0x00000000#32 hr hφ hacc (ix2 r h)
      = ∑ k : Fin 32, max (M (ix3 r k h)) (-(M (ix3 r k h))) :=
  sum_nbrs3 (absf M) hr hφ hacc r h

/-- The mixed weights over their normaliser, for any vector holding the position's weights. -/
theorem coeff_of (W : FVec Ideal S256x32x4x16 .f32) (hr2 : S256x32x4x16.Reduces [2] S256x32x16)
    (hr1 : S256x32x16.Reduces [1] S256x16) (hφ : FKind.Formats .f32)
    (hacc : (0x00000000#32 : BitVec 32) = FKind.add.neutral .f32 hφ) (hc : S256x16.ShapeCasts S256x1x16)
    (hb : S256x1x16.Broadcasts S256x32x16) (r : Fin 256) (k : Fin 32) (h : Fin 16)
    (be sa : Fin 64 → EReal) (ac : Fin 32 → Fin 64 → EReal) (gw : Fin 32 → Fin 4 → EReal)
    (hW : ∀ (k' : Fin 32) (g' : Fin 4), W (ix4 r k' g' h) = weight be sa ac gw k' g' h) :
    divf (multiReduction .add [2] S256x32x16 W 0x00000000#32 hr2 hφ hacc)
      (broadcastTo S256x32x16 (addf (shapeCast S256x1x16 (multiReduction .add [1] S256x16
        (absf (multiReduction .add [2] S256x32x16 W 0x00000000#32 hr2 hφ hacc)) 0x00000000#32 hr1 hφ hacc) hc)
        (broadcast S256x1x16 (Scalar.ofBits .f32 0x358637BD#32))) hb) (ix3 r k h)
      = coeff be sa ac gw k h := by
  have hm : ∀ k' : Fin 32, multiReduction .add [2] S256x32x16 W 0x00000000#32 hr2 hφ hacc (ix3 r k' h)
      = mixed be sa ac gw k' h := fun k' =>
    (sum_heads W hr2 hφ hacc r k' h).trans (Finset.sum_congr rfl fun g' _ => hW k' g')
  rw [divf_apply, spread_k3, addf_apply, keep_k3, abs_sum_nbrs, hm]
  unfold coeff
  refine congrArg (fun f : Fin 32 → EReal => Ideal.div (mixed be sa ac gw k h) ((∑ k', f k') + eps)) ?_
  exact funext fun k' => by rw [hm k']

/-- The neighbours' outputs weighted by the coefficients and summed over the neighbours. -/
theorem readout_of (N : FVec Ideal S256x32x8x16 .f32) (C : FVec Ideal S256x32x16 .f32)
    (hc : S256x32x16.ShapeCasts S256x32x1x16) (hb : S256x32x1x16.Broadcasts S256x32x8x16)
    (hr : S256x32x8x16.Reduces [1] S256x8x16) (hφ : FKind.Formats .f32)
    (hacc : (0x00000000#32 : BitVec 32) = FKind.add.neutral .f32 hφ) (r : Fin 256) (f : Fin 8) (h : Fin 16)
    (nd cf : Fin 32 → EReal) (hN : ∀ k, N (ix4 r k f h) = nd k) (hC : ∀ k, C (ix3 r k h) = cf k) :
    multiReduction .add [1] S256x8x16 (mulf N (broadcastTo S256x32x8x16 (shapeCast S256x32x1x16 C hc) hb))
      0x00000000#32 hr hφ hacc (ix3 r f h) = ∑ k : Fin 32, nd k * cf k := by
  refine (sum_nbrs4 _ hr hφ hacc r f h).trans (Finset.sum_congr rfl fun k _ => ?_)
  rw [mulf_apply, spread_f, hN, hC]

/-! ## The body's payloads at the position's indices -/

/-- The self scores are re-laid [256,4,16] → [256,1,4,16] twice over before they are spread: the second cast is the
    identity. -/
theorem spread_k_twice {α : Type} (v : S256x4x16.Idx → α) (hc : S256x4x16.ShapeCasts S256x1x4x16)
    (hcc : S256x1x4x16.ShapeCasts S256x1x4x16) (hb : S256x1x4x16.Broadcasts S256x32x4x16)
    (r : Fin 256) (k : Fin 32) (g : Fin 4) (h : Fin 16) :
    broadcastTo S256x32x4x16 (shapeCast S256x1x4x16 (shapeCast S256x1x4x16 v hc) hcc) hb (ix4 r k g h) = v (ix3 r g h) := by
  rw [shapeCast_self]
  exact spread_k v hc hb r k g h

/-- The weighted exponentials the body forms from a block: at (r, k, g, h) the weight of position r. -/
theorem pay5_apply (P1 P2 : Vec Ideal S1x256x64 .f32) (P3 : Vec Ideal S1x256x32x64 .f32) (P4 : Vec Ideal S1x256x32x4 .f32)
    (r : Fin 256) (k : Fin 32) (g : Fin 4) (h : Fin 16) :
    k0_pay5 (F := Ideal) P1 P2 P3 P4 (ix4 r k g h) = weight (row64 P1 r) (row64 P2 r) (rows64 P3 r) (rows4 P4 r) k g h := by
  unfold k0_pay5
  refine weight_of _ _ _ _ _ _ _ r k g h _ _ _ _ ?_ (fun k' g' => ?_)
  · exact (spread_h _ _ _ r k g h).trans (drop32x4 _ _ r k g)
  · refine scaled_of _ _ _ _ r k' g' h _ _ _ ?_ ?_ ?_ ?_
    · exact split32x64 _ _ _ r k' g' h
    · exact (spread_k_twice _ _ _ _ r k' g' h).trans (split64 _ _ _ r g' h)
    · refine (spread_k _ _ _ r k' g' h).trans ?_
      exact congrArg (· + eps) (split64 _ _ _ r g' h)
    · exact iota_single_apply .tc S256x32x4x16 32 1 _ (ix4 r k' g' h)

/-- The normalised coefficients the body forms from a block: at (r, k, h) the coefficient of position r. -/
theorem pay1_apply (P1 P2 : Vec Ideal S1x256x64 .f32) (P3 : Vec Ideal S1x256x32x64 .f32) (P4 : Vec Ideal S1x256x32x4 .f32)
    (r : Fin 256) (k : Fin 32) (h : Fin 16) :
    k0_pay1 (F := Ideal) (k0_pay5 P1 P2 P3 P4) (ix3 r k h)
      = coeff (row64 P1 r) (row64 P2 r) (rows64 P3 r) (rows4 P4 r) k h := by
  unfold k0_pay1
  exact coeff_of _ _ _ _ _ _ _ r k h _ _ _ _ (fun k' g' => pay5_apply P1 P2 P3 P4 r k' g' h)

/-- The coefficient block the body stores: element (0, r, k, h) is the coefficient of position r. -/
theorem pay3_apply (P1 P2 : Vec Ideal S1x256x64 .f32) (P3 : Vec Ideal S1x256x32x64 .f32) (P4 : Vec Ideal S1x256x32x4 .f32)
    (z : Fin 1) (r : Fin 256) (k : Fin 32) (h : Fin 16) :
    k0_pay3 (F := Ideal) (k0_pay5 P1 P2 P3 P4) (ix4 z r k h)
      = coeff (row64 P1 r) (row64 P2 r) (rows64 P3 r) (rows4 P4 r) k h := by
  unfold k0_pay3
  refine (shapeCast_apply _ _ (ix4 z r k h) (ix3 r k h) ?_).trans (pay1_apply P1 P2 P3 P4 r k h)
  have hz := z.isLt
  rw [Shape.rowMajor_val_three, Shape.rowMajor_val_four]
  show (r.val * 32 + k.val) * 16 + h.val = ((z.val * 256 + r.val) * 32 + k.val) * 16 + h.val
  omega

/-- The readout block the body stores: element (0, r, f·16 + h) is the readout of position r at (f, h). -/
theorem pay2_apply (P0 : Vec Ideal S1x256x32x128 .f32) (P1 P2 : Vec Ideal S1x256x64 .f32) (P3 : Vec Ideal S1x256x32x64 .f32)
    (P4 : Vec Ideal S1x256x32x4 .f32) (z : Fin 1) (r : Fin 256) (f : Fin 8) (h : Fin 16) :
    k0_pay2 (F := Ideal) (k0_pay4 P0) (k0_pay5 P1 P2 P3 P4) (ix3 z r (fh f h))
      = readout (row64 P1 r) (row64 P2 r) (rows64 P3 r) (rows128 P0 r) (rows4 P4 r) f h := by
  have hz := z.isLt; have hf := f.isLt; have hh := h.isLt
  unfold k0_pay2 k0_pay4
  refine (shapeCast_apply _ _ (ix3 z r (fh f h)) (ix2 r (fh f h)) ?_).trans
    ((shapeCast_apply _ _ (ix2 r (fh f h)) (ix3 r f h) ?_).trans ?_)
  · rw [Shape.rowMajor_val_two, Shape.rowMajor_val_three]
    show r.val * 128 + (f.val * 16 + h.val) = (z.val * 256 + r.val) * 128 + (f.val * 16 + h.val)
    omega
  · rw [Shape.rowMajor_val_three, Shape.rowMajor_val_two]
    show (r.val * 8 + f.val) * 16 + h.val = r.val * 128 + (f.val * 16 + h.val)
    omega
  · unfold readout
    exact readout_of _ _ _ _ _ _ _ r f h _ _ (fun k => split32x128 _ _ _ r k f h)
      (fun k => pay1_apply P1 P2 P3 P4 r k h)

end Cert.KernelRows

end
-- ==== Proof.ArraySpec.lean ====
/-
  The two results as whole arrays: at every position (b, l) the coefficients and the readout of `RowSpec` of that
  position's rows of the five argument arrays. Both programs are shown to end with these arrays.
-/
import proofs.«169955_j1666447311232_1_alg».proof.Proof.RowSpec
import Idealize.ShloMosaic.Lib.ValueIdx

noncomputable section

namespace Cert.ArraySpec

open Idealize.ShloMosaic Idealize.ShloMosaic.ValueIdx Cert.RowSpec

abbrev A64 : Shape := ⟨3, ![8, 2048, 64]⟩
abbrev A32x64 : Shape := ⟨4, ![8, 2048, 32, 64]⟩
abbrev A32x128 : Shape := ⟨4, ![8, 2048, 32, 128]⟩
abbrev A32x4 : Shape := ⟨4, ![8, 2048, 32, 4]⟩
abbrev A128 : Shape := ⟨3, ![8, 2048, 128]⟩
abbrev A32x16 : Shape := ⟨4, ![8, 2048, 32, 16]⟩

/-- The coefficients at position (b, l), neighbour k, channel h. -/
def coeffAt (x0 x1 : A64.Idx → EReal) (x2 : A32x64.Idx → EReal) (x4 : A32x4.Idx → EReal)
    (b : Fin 8) (l : Fin 2048) (k : Fin 32) (h : Fin 16) : EReal :=
  coeff (fun c => x0 (ix3 b l c)) (fun c => x1 (ix3 b l c)) (fun k' c => x2 (ix4 b l k' c)) (fun k' g => x4 (ix4 b l k' g)) k h

/-- The readout at position (b, l), lane c = f·16 + h. -/
def readoutAt (x0 x1 : A64.Idx → EReal) (x2 : A32x64.Idx → EReal) (x3 : A32x128.Idx → EReal) (x4 : A32x4.Idx → EReal)
    (b : Fin 8) (l : Fin 2048) (c : Fin 128) : EReal :=
  readout (fun c' => x0 (ix3 b l c')) (fun c' => x1 (ix3 b l c')) (fun k' c' => x2 (ix4 b l k' c'))
    (fun k' c' => x3 (ix4 b l k' c')) (fun k' g => x4 (ix4 b l k' g))
    (⟨c.val / 16, by have := c.isLt; omega⟩ : Fin 8) (⟨c.val % 16, by omega⟩ : Fin 16)

/-- The coefficient array [8, 2048, 32, 16]. -/
def coeffArr (x0 x1 : A64.Idx → EReal) (x2 : A32x64.Idx → EReal) (x4 : A32x4.Idx → EReal) : A32x16.Idx → EReal :=
  fun i => coeffAt x0 x1 x2 x4 (i 0) (i 1) (i 2) (i 3)

/-- The readout array [8, 2048, 128]. -/
def readoutArr (x0 x1 : A64.Idx → EReal) (x2 : A32x64.Idx → EReal) (x3 : A32x128.Idx → EReal) (x4 : A32x4.Idx → EReal) :
    A128.Idx → EReal :=
  fun i => readoutAt x0 x1 x2 x3 x4 (i 0) (i 1) (i 2)

theorem coeffArr_apply (x0 x1 : A64.Idx → EReal) (x2 : A32x64.Idx → EReal) (x4 : A32x4.Idx → EReal)
    (b : Fin 8) (l : Fin 2048) (k : Fin 32) (h : Fin 16) :
    coeffArr x0 x1 x2 x4 (ix4 b l k h) = coeffAt x0 x1 x2 x4 b l k h := rfl

theorem readoutArr_apply (x0 x1 : A64.Idx → EReal) (x2 : A32x64.Idx → EReal) (x3 : A32x128.Idx → EReal) (x4 : A32x4.Idx → EReal)
    (b : Fin 8) (l : Fin 2048) (c : Fin 128) :
    readoutArr x0 x1 x2 x3 x4 (ix3 b l c) = readoutAt x0 x1 x2 x3 x4 b l c := rfl

/-- At lane f·16 + h the readout is the readout at feature f, channel h. -/
theorem readoutAt_fh (x0 x1 : A64.Idx → EReal) (x2 : A32x64.Idx → EReal) (x3 : A32x128.Idx → EReal) (x4 : A32x4.Idx → EReal)
    (b : Fin 8) (l : Fin 2048) (f : Fin 8) (h : Fin 16) :
    readoutAt x0 x1 x2 x3 x4 b l (fh f h)
      = readout (fun c' => x0 (ix3 b l c')) (fun c' => x1 (ix3 b l c')) (fun k' c' => x2 (ix4 b l k' c'))
          (fun k' c' => x3 (ix4 b l k' c')) (fun k' g => x4 (ix4 b l k' g)) f h := by
  have hf := f.isLt; have hh := h.isLt
  have e1 : (⟨(fh f h).val / 16, by have := (fh f h).isLt; omega⟩ : Fin 8) = f :=
    Fin.ext (by show (f.val * 16 + h.val) / 16 = f.val; omega)
  have e2 : (⟨(fh f h).val % 16, by omega⟩ : Fin 16) = h :=
    Fin.ext (by show (f.val * 16 + h.val) % 16 = h.val; omega)
  unfold readoutAt
  rw [e1, e2]

end Cert.ArraySpec

end
-- ==== Proof.Blocks.lean ====
/-
  From the blocks the kernel writes to the arrays it leaves.

  Grid point (p, q) works on batch p, positions q·256 … q·256 + 255: every window's block index is (p, q, 0, …). What the
  body stores for row r of the block is the coefficient and the readout of position (p, q·256 + r), because row r of each
  input block is that position's row of its array. The 64 points' output blocks tile the two result arrays, so the arrays
  end as the arrays of `ArraySpec` of the arguments.
-/
import proofs.«169955_j1666447311232_1_alg».proof.Proof.Gen.KernelIdeal.Value
import proofs.«169955_j1666447311232_1_alg».proof.Proof.KernelRows
import proofs.«169955_j1666447311232_1_alg».proof.Proof.ArraySpec

noncomputable section

namespace Cert.KernelIdeal.Blocks

open Cert.KernelIdeal Cert.KernelIdeal.Gen Idealize.ShloMosaic Idealize.ShloMosaic.TcCoe Idealize.SL.Sem
open Idealize.ShloMosaic.ValueIdx Cert.RowSpec Cert.ArraySpec Cert.KernelRows
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The index maps, decided over the 64 grid points -/

/-- The output windows move together: block index (p, q, 0[, 0]) with p, q < 8. -/
theorem idx_out : ∀ t : Fin cfg0.N,
    win0_6.index t (0 : Fin 4) ≤ 7 ∧ win0_6.index t (1 : Fin 4) ≤ 7 ∧ win0_6.index t (2 : Fin 4) = 0 ∧ win0_6.index t (3 : Fin 4) = 0
    ∧ win0_5.index t (0 : Fin 3) = win0_6.index t (0 : Fin 4) ∧ win0_5.index t (1 : Fin 3) = win0_6.index t (1 : Fin 4)
    ∧ win0_5.index t (2 : Fin 3) = 0 :=
  (by decide +kernel : ∀ t : Fin grid0.N, _)

/-- The two [8,2048,64] inputs move with the outputs. -/
theorem idx_in01 : ∀ t : Fin cfg0.N,
    win0_0.index t (0 : Fin 3) = win0_6.index t (0 : Fin 4) ∧ win0_0.index t (1 : Fin 3) = win0_6.index t (1 : Fin 4)
    ∧ win0_0.index t (2 : Fin 3) = 0
    ∧ win0_1.index t (0 : Fin 3) = win0_6.index t (0 : Fin 4) ∧ win0_1.index t (1 : Fin 3) = win0_6.index t (1 : Fin 4)
    ∧ win0_1.index t (2 : Fin 3) = 0 :=
  (by decide +kernel : ∀ t : Fin grid0.N, _)

/-- The three rank-4 inputs move with the outputs. -/
theorem idx_in234 : ∀ t : Fin cfg0.N,
    win0_2.index t (0 : Fin 4) = win0_6.index t (0 : Fin 4) ∧ win0_2.index t (1 : Fin 4) = win0_6.index t (1 : Fin 4)
    ∧ win0_2.index t (2 : Fin 4) = 0 ∧ win0_2.index t (3 : Fin 4) = 0
    ∧ win0_3.index t (0 : Fin 4) = win0_6.index t (0 : Fin 4) ∧ win0_3.index t (1 : Fin 4) = win0_6.index t (1 : Fin 4)
    ∧ win0_3.index t (2 : Fin 4) = 0 ∧ win0_3.index t (3 : Fin 4) = 0
    ∧ win0_4.index t (0 : Fin 4) = win0_6.index t (0 : Fin 4) ∧ win0_4.index t (1 : Fin 4) = win0_6.index t (1 : Fin 4)
    ∧ win0_4.index t (2 : Fin 4) = 0 ∧ win0_4.index t (3 : Fin 4) = 0 :=
  (by decide +kernel : ∀ t : Fin grid0.N, _)

/-- Every (batch, tile) pair is some point's. -/
theorem idx_onto : ∀ (q0 : Fin 8) (q1 : Fin 8), ∃ t : Fin cfg0.N,
    win0_6.index t (0 : Fin 4) = q0.val ∧ win0_6.index t (1 : Fin 4) = q1.val :=
  (by decide +kernel : ∀ (q0 : Fin 8) (q1 : Fin 8), ∃ t : Fin grid0.N,
    win0_6.index t (0 : Fin 4) = q0.val ∧ win0_6.index t (1 : Fin 4) = q1.val)

/-! ## Row r of an input block is a row of its array -/

theorem row_blk0 (c : Dev nD) (t : Fin cfg0.N) (r : Fin 256) (p : Fin 8) (l : Fin 2048)
    (h0 : win0_0.index t (0 : Fin 3) = p.val) (h1 : win0_0.index t (1 : Fin 3) * 256 + r.val = l.val)
    (h2 : win0_0.index t (2 : Fin 3) = 0) :
    row64 (iblk m c 0 t) r = fun c' => V m c main_arg0 (ix3 p l c') := by
  funext c'
  show V m c main_arg0 (((cfg0.win 0).blk t).view.emb (ix3 0 r c')) = V m c main_arg0 (ix3 p l c')
  refine congrArg _ (funext fun a => Fin.ext ?_)
  match a with
  | ⟨0, _⟩ => show win0_0.index t (0 : Fin 3) * 1 + 1 * 0 = p.val; omega
  | ⟨1, _⟩ => show win0_0.index t (1 : Fin 3) * 256 + 1 * r.val = l.val; omega
  | ⟨2, _⟩ => show win0_0.index t (2 : Fin 3) * 64 + 1 * c'.val = c'.val; omega

theorem row_blk1 (c : Dev nD) (t : Fin cfg0.N) (r : Fin 256) (p : Fin 8) (l : Fin 2048)
    (h0 : win0_1.index t (0 : Fin 3) = p.val) (h1 : win0_1.index t (1 : Fin 3) * 256 + r.val = l.val)
    (h2 : win0_1.index t (2 : Fin 3) = 0) :
    row64 (iblk m c 1 t) r = fun c' => V m c main_arg1 (ix3 p l c') := by
  funext c'
  show V m c main_arg1 (((cfg0.win 1).blk t).view.emb (ix3 0 r c')) = V m c main_arg1 (ix3 p l c')
  refine congrArg _ (funext fun a => Fin.ext ?_)
  match a with
  | ⟨0, _⟩ => show win0_1.index t (0 : Fin 3) * 1 + 1 * 0 = p.val; omega
  | ⟨1, _⟩ => show win0_1.index t (1 : Fin 3) * 256 + 1 * r.val = l.val; omega
  | ⟨2, _⟩ => show win0_1.index t (2 : Fin 3) * 64 + 1 * c'.val = c'.val; omega

theorem row_blk2 (c : Dev nD) (t : Fin cfg0.N) (r : Fin 256) (p : Fin 8) (l : Fin 2048)
    (h0 : win0_2.index t (0 : Fin 4) = p.val) (h1 : win0_2.index t (1 : Fin 4) * 256 + r.val = l.val)
    (h2 : win0_2.index t (2 : Fin 4) = 0) (h3 : win0_2.index t (3 : Fin 4) = 0) :
    rows64 (iblk m c 2 t) r = fun k' c' => V m c main_arg2 (ix4 p l k' c') := by
  funext k' c'
  show V m c main_arg2 (((cfg0.win 2).blk t).view.emb (ix4 0 r k' c')) = V m c main_arg2 (ix4 p l k' c')
  refine congrArg _ (funext fun a => Fin.ext ?_)
  match a with
  | ⟨0, _⟩ => show win0_2.index t (0 : Fin 4) * 1 + 1 * 0 = p.val; omega
  | ⟨1, _⟩ => show win0_2.index t (1 : Fin 4) * 256 + 1 * r.val = l.val; omega
  | ⟨2, _⟩ => show win0_2.index t (2 : Fin 4) * 32 + 1 * k'.val = k'.val; omega
  | ⟨3, _⟩ => show win0_2.index t (3 : Fin 4) * 64 + 1 * c'.val = c'.val; omega

theorem row_blk3 (c : Dev nD) (t : Fin cfg0.N) (r : Fin 256) (p : Fin 8) (l : Fin 2048)
    (h0 : win0_3.index t (0 : Fin 4) = p.val) (h1 : win0_3.index t (1 : Fin 4) * 256 + r.val = l.val)
    (h2 : win0_3.index t (2 : Fin 4) = 0) (h3 : win0_3.index t (3 : Fin 4) = 0) :
    rows128 (iblk m c 3 t) r = fun k' c' => V m c main_arg3 (ix4 p l k' c') := by
  funext k' c'
  show V m c main_arg3 (((cfg0.win 3).blk t).view.emb (ix4 0 r k' c')) = V m c main_arg3 (ix4 p l k' c')
  refine congrArg _ (funext fun a => Fin.ext ?_)
  match a with
  | ⟨0, _⟩ => show win0_3.index t (0 : Fin 4) * 1 + 1 * 0 = p.val; omega
  | ⟨1, _⟩ => show win0_3.index t (1 : Fin 4) * 256 + 1 * r.val = l.val; omega
  | ⟨2, _⟩ => show win0_3.index t (2 : Fin 4) * 32 + 1 * k'.val = k'.val; omega
  | ⟨3, _⟩ => show win0_3.index t (3 : Fin 4) * 128 + 1 * c'.val = c'.val; omega

theorem row_blk4 (c : Dev nD) (t : Fin cfg0.N) (r : Fin 256) (p : Fin 8) (l : Fin 2048)
    (h0 : win0_4.index t (0 : Fin 4) = p.val) (h1 : win0_4.index t (1 : Fin 4) * 256 + r.val = l.val)
    (h2 : win0_4.index t (2 : Fin 4) = 0) (h3 : win0_4.index t (3 : Fin 4) = 0) :
    rows4 (iblk m c 4 t) r = fun k' g => V m c main_arg4 (ix4 p l k' g) := by
  funext k' g
  show V m c main_arg4 (((cfg0.win 4).blk t).view.emb (ix4 0 r k' g)) = V m c main_arg4 (ix4 p l k' g)
  refine congrArg _ (funext fun a => Fin.ext ?_)
  match a with
  | ⟨0, _⟩ => show win0_4.index t (0 : Fin 4) * 1 + 1 * 0 = p.val; omega
  | ⟨1, _⟩ => show win0_4.index t (1 : Fin 4) * 256 + 1 * r.val = l.val; omega
  | ⟨2, _⟩ => show win0_4.index t (2 : Fin 4) * 32 + 1 * k'.val = k'.val; omega
  | ⟨3, _⟩ => show win0_4.index t (3 : Fin 4) * 4 + 1 * g.val = g.val; omega

/-! ## What a point writes back -/

/-- Point t writes back its block of the coefficient array. -/
theorem flushed6_eq (c : Dev nD) (t : Fin cfg0.N) :
    (dats m 0 c).flushed 6 t = ((cfg0.win 6).blk t).view.read (Elt Ideal)
      (coeffArr (V m c main_arg0) (V m c main_arg1) (V m c main_arg2) (V m c main_arg4)) := by
  show (cfg0.win 6).cut (grid0.coords t) ((dats m 0 c).after 6 t) = _
  rw [after0_6]
  unfold out0_6
  rw [View.canon_unit_zero hz4]
  simp only [View.ld_unit_zero (S := S1x256x64) hz3, View.ld_unit_zero (S := S1x256x32x64) hz4,
    View.ld_unit_zero (S := S1x256x32x4) hz4]
  obtain ⟨o0, o1, o2, o3, -, -, -⟩ := idx_out t
  obtain ⟨a0, a1, a2, b0, b1, b2⟩ := idx_in01 t
  obtain ⟨c0, c1, c2, c3, -, -, -, -, e0, e1, e2, e3⟩ := idx_in234 t
  funext j
  obtain ⟨z, r, k, h, rfl⟩ : ∃ (z : Fin 1) (r : Fin 256) (k : Fin 32) (h : Fin 16), j = (ix4 z r k h : S1x256x32x16.Idx) :=
    ⟨j 0, j 1, j 2, j 3, eq_ix4 j⟩
  have hr := r.isLt; have hz := z.isLt
  have hp : win0_6.index t (0 : Fin 4) < 8 := by omega
  have hl : win0_6.index t (1 : Fin 4) * 256 + r.val < 2048 := by omega
  have hemb : ((cfg0.win 6).blk t).view.emb (ix4 z r k h)
      = ix4 (⟨win0_6.index t (0 : Fin 4), hp⟩ : Fin 8) (⟨win0_6.index t (1 : Fin 4) * 256 + r.val, hl⟩ : Fin 2048) k h := by
    funext a; apply Fin.ext
    match a with
    | ⟨0, _⟩ => show win0_6.index t (0 : Fin 4) * 1 + 1 * z.val = win0_6.index t (0 : Fin 4); omega
    | ⟨1, _⟩ => show win0_6.index t (1 : Fin 4) * 256 + 1 * r.val = win0_6.index t (1 : Fin 4) * 256 + r.val; omega
    | ⟨2, _⟩ => show win0_6.index t (2 : Fin 4) * 32 + 1 * k.val = k.val; omega
    | ⟨3, _⟩ => show win0_6.index t (3 : Fin 4) * 16 + 1 * h.val = h.val; omega
  show k0_pay3 (k0_pay5 (iblk m c 0 t) (iblk m c 1 t) (iblk m c 2 t) (iblk m c 4 t)) (ix4 z r k h)
    = coeffArr (V m c main_arg0) (V m c main_arg1) (V m c main_arg2) (V m c main_arg4)
        (((cfg0.win 6).blk t).view.emb (ix4 z r k h))
  rw [hemb, coeffArr_apply]
  refine (pay3_apply _ _ _ _ z r k h).trans ?_
  unfold coeffAt
  rw [row_blk0 m c t r ⟨_, hp⟩ ⟨_, hl⟩ a0 (by rw [a1]) a2, row_blk1 m c t r ⟨_, hp⟩ ⟨_, hl⟩ b0 (by rw [b1]) b2,
    row_blk2 m c t r ⟨_, hp⟩ ⟨_, hl⟩ c0 (by rw [c1]) c2 c3, row_blk4 m c t r ⟨_, hp⟩ ⟨_, hl⟩ e0 (by rw [e1]) e2 e3]

/-- Point t writes back its block of the readout array. -/
theorem flushed5_eq (c : Dev nD) (t : Fin cfg0.N) :
    (dats m 0 c).flushed 5 t = ((cfg0.win 5).blk t).view.read (Elt Ideal)
      (readoutArr (V m c main_arg0) (V m c main_arg1) (V m c main_arg2) (V m c main_arg3) (V m c main_arg4)) := by
  show (cfg0.win 5).cut (grid0.coords t) ((dats m 0 c).after 5 t) = _
  rw [after0_5]
  unfold out0_5
  rw [View.canon_unit_zero hz3]
  simp only [View.ld_unit_zero (S := S1x256x64) hz3, View.ld_unit_zero (S := S1x256x32x64) hz4,
    View.ld_unit_zero (S := S1x256x32x128) hz4, View.ld_unit_zero (S := S1x256x32x4) hz4]
  obtain ⟨o0, o1, -, -, p0, p1, p2⟩ := idx_out t
  obtain ⟨a0, a1, a2, b0, b1, b2⟩ := idx_in01 t
  obtain ⟨c0, c1, c2, c3, d0, d1, d2, d3, e0, e1, e2, e3⟩ := idx_in234 t
  funext j
  obtain ⟨z, r, cc, rfl⟩ : ∃ (z : Fin 1) (r : Fin 256) (cc : Fin 128), j = (ix3 z r cc : S1x256x128.Idx) :=
    ⟨j 0, j 1, j 2, eq_ix3 j⟩
  obtain ⟨f, h, rfl⟩ : ∃ (f : Fin 8) (h : Fin 16), cc = fh f h :=
    ⟨⟨cc.val / 16, by have := cc.isLt; omega⟩, ⟨cc.val % 16, by omega⟩,
      Fin.ext (by show cc.val = cc.val / 16 * 16 + cc.val % 16; omega)⟩
  have hr := r.isLt; have hz := z.isLt
  have hp : win0_6.index t (0 : Fin 4) < 8 := by omega
  have hl : win0_6.index t (1 : Fin 4) * 256 + r.val < 2048 := by omega
  have hemb : ((cfg0.win 5).blk t).view.emb (ix3 z r (fh f h))
      = ix3 (⟨win0_6.index t (0 : Fin 4), hp⟩ : Fin 8) (⟨win0_6.index t (1 : Fin 4) * 256 + r.val, hl⟩ : Fin 2048)
          (fh f h) := by
    funext a; apply Fin.ext
    match a with
    | ⟨0, _⟩ => show win0_5.index t (0 : Fin 3) * 1 + 1 * z.val = win0_6.index t (0 : Fin 4); omega
    | ⟨1, _⟩ => show win0_5.index t (1 : Fin 3) * 256 + 1 * r.val = win0_6.index t (1 : Fin 4) * 256 + r.val; omega
    | ⟨2, _⟩ => show win0_5.index t (2 : Fin 3) * 128 + 1 * (fh f h).val = (fh f h).val; omega
  show k0_pay2 (k0_pay4 (iblk m c 3 t)) (k0_pay5 (iblk m c 0 t) (iblk m c 1 t) (iblk m c 2 t) (iblk m c 4 t)) (ix3 z r (fh f h))
    = readoutArr (V m c main_arg0) (V m c main_arg1) (V m c main_arg2) (V m c main_arg3) (V m c main_arg4)
        (((cfg0.win 5).blk t).view.emb (ix3 z r (fh f h)))
  rw [hemb, readoutArr_apply, readoutAt_fh]
  refine (pay2_apply _ _ _ _ _ z r f h).trans ?_
  rw [row_blk0 m c t r ⟨_, hp⟩ ⟨_, hl⟩ a0 (by rw [a1]) a2, row_blk1 m c t r ⟨_, hp⟩ ⟨_, hl⟩ b0 (by rw [b1]) b2,
    row_blk2 m c t r ⟨_, hp⟩ ⟨_, hl⟩ c0 (by rw [c1]) c2 c3, row_blk3 m c t r ⟨_, hp⟩ ⟨_, hl⟩ d0 (by rw [d1]) d2 d3,
    row_blk4 m c t r ⟨_, hp⟩ ⟨_, hl⟩ e0 (by rw [e1]) e2 e3]

/-! ## The blocks tile the arrays -/

theorem mem_blk6 (t : Fin cfg0.N) (i : S8x2048x32x16.Idx) :
    i ∈ ((cfg0.win 6).blk t).view.set ↔ ∀ a : Fin 4, win0_6.index t a * S1x256x32x16.size a ≤ (i a).val
      ∧ (i a).val < win0_6.index t a * S1x256x32x16.size a + S1x256x32x16.size a := by
  show i ∈ ((View.whole main_v0_1).slice (win0_6.rect t)).set ↔ _
  rw [View.set_slice_whole, Rect.mem_set_unit]
  exact Iff.rfl

theorem mem_blk5 (t : Fin cfg0.N) (i : S8x2048x128.Idx) :
    i ∈ ((cfg0.win 5).blk t).view.set ↔ ∀ a : Fin 3, win0_5.index t a * S1x256x128.size a ≤ (i a).val
      ∧ (i a).val < win0_5.index t a * S1x256x128.size a + S1x256x128.size a := by
  show i ∈ ((View.whole main_v0_0).slice (win0_5.rect t)).set ↔ _
  rw [View.set_slice_whole, Rect.mem_set_unit]
  exact Iff.rfl

/-- Position (b, l) of the coefficient array is in the block of the point with batch b and tile l / 256. -/
theorem cover6 (i : S8x2048x32x16.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 32 := (i 2).isLt
  have hi3 : (i 3).val < 16 := (i 3).isLt
  obtain ⟨t, q0, q1⟩ := idx_onto ⟨(i 0).val, hi0⟩ ⟨(i 1).val / 256, by omega⟩
  obtain ⟨-, -, q2, q3, -, -, -⟩ := idx_out t
  have q0' : win0_6.index t (0 : Fin 4) = (i 0).val := q0
  have q1' : win0_6.index t (1 : Fin 4) = (i 1).val / 256 := q1
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 256 ≤ (i 1).val ∧ (i 1).val < win0_6.index t (1 : Fin 4) * 256 + 256; omega
  | ⟨2, _⟩ => show win0_6.index t (2 : Fin 4) * 32 ≤ (i 2).val ∧ (i 2).val < win0_6.index t (2 : Fin 4) * 32 + 32; omega
  | ⟨3, _⟩ => show win0_6.index t (3 : Fin 4) * 16 ≤ (i 3).val ∧ (i 3).val < win0_6.index t (3 : Fin 4) * 16 + 16; omega

/-- Position (b, l) of the readout array likewise. -/
theorem cover5 (i : S8x2048x128.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 128 := (i 2).isLt
  obtain ⟨t, q0, q1⟩ := idx_onto ⟨(i 0).val, hi0⟩ ⟨(i 1).val / 256, by omega⟩
  obtain ⟨-, -, -, -, p0, p1, p2⟩ := idx_out t
  have q0' : win0_6.index t (0 : Fin 4) = (i 0).val := q0
  have q1' : win0_6.index t (1 : Fin 4) = (i 1).val / 256 := q1
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 128 ≤ (i 2).val ∧ (i 2).val < win0_5.index t (2 : Fin 3) * 128 + 128; omega

/-! ## The arrays after the run -/

theorem final6 (c : Dev nD) : (dats m 0 c).arrAt 6 cfg0.N
    = coeffArr (m ((c : Thread nD τ).loc main_arg0)) (m ((c : Thread nD τ).loc main_arg1))
        (m ((c : Thread nD τ).loc main_arg2)) (m ((c : Thread nD τ).loc main_arg4)) :=
  (dats m 0 c).arrAt_eq_of_cover 6 _ (fun t _ => flushed6_eq m c t) cover6

theorem final5 (c : Dev nD) : (dats m 0 c).arrAt 5 cfg0.N
    = readoutArr (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 5 _ (fun t _ => flushed5_eq m c t) cover5

/-- The kernel's run: the two results are the arrays of `ArraySpec` of the arguments, which end unchanged. -/
theorem run : θ_run defs (onTc (τ := τ) (main (F := Ideal))) ⟨m, fun _ => 0, ρ⟩ fun r => ∀ c : Dev nD,
      r.2.mem ((c : Thread nD τ).loc main_v0_0)
        = readoutArr (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_v0_1)
        = coeffArr (m ((c : Thread nD τ).loc main_arg0)) (m ((c : Thread nD τ).loc main_arg1))
            (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Cert.KernelIdeal.Value.run_blocks m ρ)

end Cert.KernelIdeal.Blocks

end
-- ==== Proof.LibScatterRead.lean ====
/-
  A host scatter read at one element.

  `Host.scatter d f x idx upd` folds over the update positions in row-major order; the step for update index `j`
  replaces the element at `j`'s landing place `d.resultIdx? j idx` (when it has one) by `f` of that element and the
  update. When no two update indices land on the same element the fold can be read element by element: an element that
  is the landing place of the update index `j` ends as `f (x i) (upd j)`, and an element on which no update lands keeps
  its value. Both statements hold for every body `f`, element type and shape.
-/
import Idealize.ShloMosaic.PureOps.ShapeOps

namespace Idealize.ShloMosaic.ScatterRead

variable {α : Type} {s si u : Shape} {w : Nat}

/-- The scatter's fold over an arbitrary list of update positions. -/
def foldOver (d : ScatterDims s si u) (f : α → α → α) (idx : IVec si w) (upd : u.Idx → α) (l : List (Fin u.numel))
    (x : s.Idx → α) : s.Idx → α :=
  l.foldl (fun r n =>
      match d.resultIdx? (u.rowMajor.symm n) idx with
      | some i => fun i' => if i' = i then f (r i) (upd (u.rowMajor.symm n)) else r i'
      | none => r)
    x

theorem scatter_eq_foldOver (d : ScatterDims s si u) (f : α → α → α) (x : s.Idx → α) (idx : IVec si w) (upd : u.Idx → α) :
    Host.scatter d f x idx upd = foldOver d f idx upd (List.finRange u.numel) x := rfl

theorem foldOver_cons (d : ScatterDims s si u) (f : α → α → α) (idx : IVec si w) (upd : u.Idx → α) (n : Fin u.numel)
    (l : List (Fin u.numel)) (x : s.Idx → α) :
    foldOver d f idx upd (n :: l) x = foldOver d f idx upd l
      (match d.resultIdx? (u.rowMajor.symm n) idx with
        | some i => fun i' => if i' = i then f (x i) (upd (u.rowMajor.symm n)) else x i'
        | none => x) := rfl

/-- One step leaves an element on which its update does not land as it was. -/
theorem step_of_ne (d : ScatterDims s si u) (f : α → α → α) (idx : IVec si w) (upd : u.Idx → α) (n : Fin u.numel)
    (x : s.Idx → α) (i : s.Idx) (h : d.resultIdx? (u.rowMajor.symm n) idx ≠ some i) :
    (match d.resultIdx? (u.rowMajor.symm n) idx with
        | some i => fun i' => if i' = i then f (x i) (upd (u.rowMajor.symm n)) else x i'
        | none => x) i = x i := by
  cases hr : d.resultIdx? (u.rowMajor.symm n) idx with
  | none => rfl
  | some i₀ =>
    have hne : i ≠ i₀ := fun e => h (by rw [hr, e])
    show (if i = i₀ then _ else x i) = x i
    rw [if_neg hne]

/-- Updates none of which lands on `i` leave `i` as it was. -/
theorem foldOver_of_miss (d : ScatterDims s si u) (f : α → α → α) (idx : IVec si w) (upd : u.Idx → α) (i : s.Idx) :
    ∀ (l : List (Fin u.numel)) (x : s.Idx → α), (∀ n ∈ l, d.resultIdx? (u.rowMajor.symm n) idx ≠ some i) →
      foldOver d f idx upd l x i = x i
  | [], _, _ => rfl
  | n :: l, x, h => by
    rw [foldOver_cons, foldOver_of_miss d f idx upd i l _ (fun n' hn' => h n' (List.mem_cons_of_mem _ hn'))]
    exact step_of_ne d f idx upd n x i (h n (List.mem_cons_self ..))

/-- Among updates without repeats exactly one of which, at position `n₀`, lands on `i`, the element ends as the body of
    its value and that update. -/
theorem foldOver_of_hit (d : ScatterDims s si u) (f : α → α → α) (idx : IVec si w) (upd : u.Idx → α) (i : s.Idx)
    (n₀ : Fin u.numel) (h₀ : d.resultIdx? (u.rowMajor.symm n₀) idx = some i) :
    ∀ (l : List (Fin u.numel)) (x : s.Idx → α), l.Nodup → n₀ ∈ l →
      (∀ n ∈ l, d.resultIdx? (u.rowMajor.symm n) idx = some i → n = n₀) →
      foldOver d f idx upd l x i = f (x i) (upd (u.rowMajor.symm n₀))
  | [], _, _, hm, _ => absurd hm (List.not_mem_nil)
  | n :: l, x, hnd, hm, huniq => by
    rw [foldOver_cons]
    by_cases hn : n = n₀
    · subst hn
      have hnot : n ∉ l := (List.nodup_cons.1 hnd).1
      rw [foldOver_of_miss d f idx upd i l _ (fun n' hn' e =>
        hnot ((huniq n' (List.mem_cons_of_mem _ hn') e) ▸ hn'))]
      rw [h₀]
      show (if i = i then _ else x i) = _
      rw [if_pos rfl]
    · have hm' : n₀ ∈ l := by
        rcases List.mem_cons.1 hm with e | e
        · exact absurd e.symm hn
        · exact e
      rw [foldOver_of_hit d f idx upd i n₀ h₀ l _ (List.nodup_cons.1 hnd).2 hm'
        (fun n' hn' e => huniq n' (List.mem_cons_of_mem _ hn') e)]
      rw [step_of_ne d f idx upd n x i (fun e => hn (huniq n (List.mem_cons_self ..) e))]

/-- A scatter none of whose updates lands on `i` leaves `i` as it was. -/
theorem scatter_apply_of_miss (d : ScatterDims s si u) (f : α → α → α) (x : s.Idx → α) (idx : IVec si w) (upd : u.Idx → α)
    (i : s.Idx) (h : ∀ j : u.Idx, d.resultIdx? j idx ≠ some i) :
    Host.scatter d f x idx upd i = x i := by
  rw [scatter_eq_foldOver]
  exact foldOver_of_miss d f idx upd i _ x (fun n _ => h _)

/-- A scatter exactly one of whose updates, at index `j`, lands on `i` ends there as the body of the operand's element and
    that update. -/
theorem scatter_apply_of_hit (d : ScatterDims s si u) (f : α → α → α) (x : s.Idx → α) (idx : IVec si w) (upd : u.Idx → α)
    (i : s.Idx) (j : u.Idx) (hj : d.resultIdx? j idx = some i) (huniq : ∀ j' : u.Idx, d.resultIdx? j' idx = some i → j' = j) :
    Host.scatter d f x idx upd i = f (x i) (upd j) := by
  rw [scatter_eq_foldOver]
  have e : u.rowMajor.symm (u.rowMajor j) = j := u.rowMajor.symm_apply_apply j
  rw [foldOver_of_hit d f idx upd i (u.rowMajor j) (by rw [e]; exact hj) _ x (List.nodup_finRange _) (List.mem_finRange _)
    (fun n _ hn => by
      have := huniq _ hn
      rw [← this]; exact (u.rowMajor.apply_symm_apply n).symm), e]

end Idealize.ShloMosaic.ScatterRead
-- ==== Proof.RefRows.lean ====
/-
  What the reference computes, read at an index: at the position (b, l) each stage of the reference is the function of
  `RowSpec` of that position's rows of the argument arrays.

  Two stages need an argument of their own. The scatter that adds the self scores into neighbour slot 0 lands update (b, l, g, h) on
  element (b, l, 0, g, h): distinct updates land on distinct elements, so slot 0 holds score plus self score and the other
  slots keep their score. The maximum over neighbours and heads is a fold over the set of indices with the given
  (b, l, channel), which the pairs (neighbour, head) enumerate.
-/
import proofs.«169955_j1666447311232_1_alg».proof.Proof.Gen.ReferenceIdeal.Read
import proofs.«169955_j1666447311232_1_alg».proof.Proof.RowSpec
import proofs.«169955_j1666447311232_1_alg».proof.Proof.LibScatterRead
import proofs.«169955_j1666447311232_1_alg».proof.Proof.LibFoldReindex
import Idealize.ShloMosaic.Lib.ValueIdx
import Idealize.ShloMosaic.PureOps.Ideal.Laws

noncomputable section

namespace Cert.RefRows

open Idealize.ShloMosaic Idealize.ShloMosaic.ValueIdx Cert.ReferenceIdeal Cert.ReferenceIdeal.Read Cert.RowSpec
open Cert.ReferenceIdeal.Facts₀

/-- Row (b, l) of a [8,2048,64] array. -/
abbrev arow64 (x : S8x2048x64.Idx → EReal) (b : Fin 8) (l : Fin 2048) : Fin 64 → EReal := fun c => x (ix3 b l c)
/-- Row (b, l) of a [8,2048,32,64] array: neighbour by lane. -/
abbrev arows64 (x : S8x2048x32x64.Idx → EReal) (b : Fin 8) (l : Fin 2048) : Fin 32 → Fin 64 → EReal := fun k c => x (ix4 b l k c)
/-- Row (b, l) of a [8,2048,32,128] array. -/
abbrev arows128 (x : S8x2048x32x128.Idx → EReal) (b : Fin 8) (l : Fin 2048) : Fin 32 → Fin 128 → EReal := fun k c => x (ix4 b l k c)
/-- Row (b, l) of a [8,2048,32,4] array. -/
abbrev arows4 (x : S8x2048x32x4.Idx → EReal) (b : Fin 8) (l : Fin 2048) : Fin 32 → Fin 4 → EReal := fun k g => x (ix4 b l k g)

/-! ## Where each layout step reads -/

section Indices
variable (b : Fin 8) (l : Fin 2048) (k : Fin 32) (g : Fin 4) (f : Fin 8) (h : Fin 16)

theorem idx_v0 : idx_main_v0 (ix4 b l g h) = ix3 b l (gh g h) := by
  have := b.isLt; have := l.isLt; have := g.isLt; have := h.isLt
  funext a; apply Fin.ext
  match a with
  | ⟨0, _⟩ => show (((b.val * 2048 + l.val) * 4 + g.val) * 16 + h.val) / 131072 = b.val; omega
  | ⟨1, _⟩ => show (((b.val * 2048 + l.val) * 4 + g.val) * 16 + h.val) / 64 % 2048 = l.val; omega
  | ⟨2, _⟩ => show (((b.val * 2048 + l.val) * 4 + g.val) * 16 + h.val) % 64 = g.val * 16 + h.val; omega

theorem idx_v1 : idx_main_v1 (ix4 b l g h) = ix3 b l (gh g h) := idx_v0 b l g h

theorem idx_v2 : idx_main_v2 (ix5 b l k g h) = ix4 b l k (gh g h) := by
  have := b.isLt; have := l.isLt; have := k.isLt; have := g.isLt; have := h.isLt
  funext a; apply Fin.ext
  match a with
  | ⟨0, _⟩ => show ((((b.val * 2048 + l.val) * 32 + k.val) * 4 + g.val) * 16 + h.val) / 4194304 = b.val; omega
  | ⟨1, _⟩ => show ((((b.val * 2048 + l.val) * 32 + k.val) * 4 + g.val) * 16 + h.val) / 2048 % 2048 = l.val; omega
  | ⟨2, _⟩ => show ((((b.val * 2048 + l.val) * 32 + k.val) * 4 + g.val) * 16 + h.val) / 64 % 32 = k.val; omega
  | ⟨3, _⟩ => show ((((b.val * 2048 + l.val) * 32 + k.val) * 4 + g.val) * 16 + h.val) % 64 = g.val * 16 + h.val; omega

theorem idx_v3 : idx_main_v3 (ix5 b l k f h) = ix4 b l k (fh f h) := by
  have := b.isLt; have := l.isLt; have := k.isLt; have := f.isLt; have := h.isLt
  funext a; apply Fin.ext
  match a with
  | ⟨0, _⟩ => show ((((b.val * 2048 + l.val) * 32 + k.val) * 8 + f.val) * 16 + h.val) / 8388608 = b.val; omega
  | ⟨1, _⟩ => show ((((b.val * 2048 + l.val) * 32 + k.val) * 8 + f.val) * 16 + h.val) / 4096 % 2048 = l.val; omega
  | ⟨2, _⟩ => show ((((b.val * 2048 + l.val) * 32 + k.val) * 8 + f.val) * 16 + h.val) / 128 % 32 = k.val; omega
  | ⟨3, _⟩ => show ((((b.val * 2048 + l.val) * 32 + k.val) * 8 + f.val) * 16 + h.val) % 128 = f.val * 16 + h.val; omega

theorem idx_v8_v9 : idx_main_v8 (idx_main_v9 (ix5 b l k g h)) = ix4 b l g h := by
  funext a; apply Fin.ext
  match a with | ⟨0, _⟩ => rfl | ⟨1, _⟩ => rfl | ⟨2, _⟩ => rfl | ⟨3, _⟩ => rfl

theorem idx_v12_v13 : idx_main_v12 (idx_main_v13 (ix5 b l k g h)) = ix3 b l h := by
  funext a; apply Fin.ext
  match a with | ⟨0, _⟩ => rfl | ⟨1, _⟩ => rfl | ⟨2, _⟩ => rfl

theorem idx_v15_v17 : idx_main_v15 (idx_main_v17 (ix5 b l k g h)) = ix4 b l k g := by
  funext a; apply Fin.ext
  match a with | ⟨0, _⟩ => rfl | ⟨1, _⟩ => rfl | ⟨2, _⟩ => rfl | ⟨3, _⟩ => rfl

theorem idx_v19 : idx_main_v19 (ix4 b l k h) g = ix5 b l k g h := by
  funext a; apply Fin.ext
  match a with | ⟨0, _⟩ => rfl | ⟨1, _⟩ => rfl | ⟨2, _⟩ => rfl | ⟨3, _⟩ => rfl | ⟨4, _⟩ => rfl

theorem idx_v21 : idx_main_v21 (ix3 b l h) k = ix4 b l k h := by
  funext a; apply Fin.ext
  match a with | ⟨0, _⟩ => rfl | ⟨1, _⟩ => rfl | ⟨2, _⟩ => rfl | ⟨3, _⟩ => rfl

theorem idx_v22_v25 : idx_main_v22 (idx_main_v25 (ix4 b l k h)) = ix3 b l h := by
  funext a; apply Fin.ext
  match a with | ⟨0, _⟩ => rfl | ⟨1, _⟩ => rfl | ⟨2, _⟩ => rfl

theorem idx_v27_v28 : idx_main_v27 (idx_main_v28 (ix5 b l k f h)) = ix4 b l k h := by
  funext a; apply Fin.ext
  match a with | ⟨0, _⟩ => rfl | ⟨1, _⟩ => rfl | ⟨2, _⟩ => rfl | ⟨3, _⟩ => rfl

theorem idx_v30 : idx_main_v30 (ix4 b l f h) k = ix5 b l k f h := by
  funext a; apply Fin.ext
  match a with | ⟨0, _⟩ => rfl | ⟨1, _⟩ => rfl | ⟨2, _⟩ => rfl | ⟨3, _⟩ => rfl | ⟨4, _⟩ => rfl

theorem idx_v31 (c : Fin 128) : idx_main_v31 (ix3 b l c) = ix4 b l (⟨c.val / 16, by have := c.isLt; omega⟩ : Fin 8)
    (⟨c.val % 16, by omega⟩ : Fin 16) := by
  have := b.isLt; have := l.isLt; have := c.isLt
  funext a; apply Fin.ext
  match a with
  | ⟨0, _⟩ => show ((b.val * 2048 + l.val) * 128 + c.val) / 262144 = b.val; omega
  | ⟨1, _⟩ => show ((b.val * 2048 + l.val) * 128 + c.val) / 128 % 2048 = l.val; omega
  | ⟨2, _⟩ => show ((b.val * 2048 + l.val) * 128 + c.val) / 16 % 8 = c.val / 16; omega
  | ⟨3, _⟩ => show ((b.val * 2048 + l.val) * 128 + c.val) % 16 = c.val % 16; omega

end Indices

/-! ## The scatter into neighbour slot 0 -/

local notation "dS" => scatter_S8x2048x32x4x16_S1_S8x2048x4x16_0123_2_2_0

/-- The start index is zero on every axis: the one scatter index is the constant 0. -/
theorem start_zero (idx : IVec S1 32) (hidx : ∀ q, idx q = 0#32) (j : S8x2048x4x16.Idx) (a : Fin 5) :
    ScatterDims.start dS j idx a = 0 := by
  unfold ScatterDims.start
  split
  · rw [hidx]; rfl
  · rfl

/-- Update (b, l, g, h) lands on element (b, l, 0, g, h). -/
theorem landing (idx : IVec S1 32) (hidx : ∀ q, idx q = 0#32) (j : S8x2048x4x16.Idx) :
    ScatterDims.resultIdx? dS j idx = some (ix5 (j 0) (j 1) 0 (j 2) (j 3)) := by
  have hs := start_zero idx hidx j
  have h0 : (j 0).val < 8 := (j 0).isLt; have h1 : (j 1).val < 2048 := (j 1).isLt; have h2 : (j 2).val < 4 := (j 2).isLt; have h3 : (j 3).val < 16 := (j 3).isLt
  have hall : ∀ a : Fin 5, 0 ≤ ScatterDims.start dS j idx a + (ScatterDims.window dS j a : Int)
      ∧ ScatterDims.start dS j idx a + (ScatterDims.window dS j a : Int) < (S8x2048x32x4x16.size a : Nat) := by
    intro a
    rw [hs a]
    match a with
    | ⟨0, _⟩ => show 0 ≤ (0 : Int) + ((j 0).val : Nat) ∧ (0 : Int) + ((j 0).val : Nat) < (8 : Nat); omega
    | ⟨1, _⟩ => show 0 ≤ (0 : Int) + ((j 1).val : Nat) ∧ (0 : Int) + ((j 1).val : Nat) < (2048 : Nat); omega
    | ⟨2, _⟩ => show 0 ≤ (0 : Int) + ((0 : Nat) : Int) ∧ (0 : Int) + ((0 : Nat) : Int) < (32 : Nat); omega
    | ⟨3, _⟩ => show 0 ≤ (0 : Int) + ((j 2).val : Nat) ∧ (0 : Int) + ((j 2).val : Nat) < (4 : Nat); omega
    | ⟨4, _⟩ => show 0 ≤ (0 : Int) + ((j 3).val : Nat) ∧ (0 : Int) + ((j 3).val : Nat) < (16 : Nat); omega
  unfold ScatterDims.resultIdx?
  rw [dif_pos hall]
  refine congrArg some (funext fun a => Fin.ext ?_)
  show (ScatterDims.start dS j idx a + (ScatterDims.window dS j a : Int)).toNat = _
  rw [hs a]
  match a with
  | ⟨0, _⟩ => show ((0 : Int) + ((j 0).val : Nat)).toNat = (j 0).val; omega
  | ⟨1, _⟩ => show ((0 : Int) + ((j 1).val : Nat)).toNat = (j 1).val; omega
  | ⟨2, _⟩ => show ((0 : Int) + ((0 : Nat) : Int)).toNat = 0; omega
  | ⟨3, _⟩ => show ((0 : Int) + ((j 2).val : Nat)).toNat = (j 2).val; omega
  | ⟨4, _⟩ => show ((0 : Int) + ((j 3).val : Nat)).toNat = (j 3).val; omega

/-! ## The stages at the position (b, l) -/

section Stages
variable (x0 x1 : (⟨S8x2048x64, .f32⟩ : BufTy).Contents (Elt Ideal)) (x2 : (⟨S8x2048x32x64, .f32⟩ : BufTy).Contents (Elt Ideal))
  (x3 : (⟨S8x2048x32x128, .f32⟩ : BufTy).Contents (Elt Ideal)) (x4 : (⟨S8x2048x32x4, .f32⟩ : BufTy).Contents (Elt Ideal))
  (b : Fin 8) (l : Fin 2048)

theorem idx_is_zero (q : S1.Idx) : val_main_v4 (F := Ideal) q = 0#32 := by
  rw [val_main_v4_apply]; rfl

/-- The scores after the scatter: slot 0 holds score plus self score, the other slots their score. -/
theorem ref_v5 (k : Fin 32) (g : Fin 4) (h : Fin 16) :
    val_main_v5 (F := Ideal) x1 x2 (ix5 b l k g h)
      = if k.val = 0 then x2 (ix4 b l k (gh g h)) + x1 (ix3 b l (gh g h)) else x2 (ix4 b l k (gh g h)) := by
  unfold val_main_v5
  by_cases h0 : k.val = 0
  · rw [if_pos h0]
    have hk : k = 0 := Fin.ext h0
    subst hk
    rw [ScatterRead.scatter_apply_of_hit dS FloatOps.addf _ _ _ (ix5 b l 0 g h) (ix4 b l g h)
      (landing _ idx_is_zero _) (fun j' hj' => ?_)]
    · rw [val_main_v2_apply, val_main_v1_apply, idx_v2, idx_v1]; rfl
    · rw [landing _ idx_is_zero j'] at hj'
      have e := Option.some.inj hj'
      funext a
      match a with
      | ⟨0, _⟩ => exact congrFun e 0
      | ⟨1, _⟩ => exact congrFun e 1
      | ⟨2, _⟩ => exact congrFun e 3
      | ⟨3, _⟩ => exact congrFun e 4
  · rw [if_neg h0, ScatterRead.scatter_apply_of_miss dS FloatOps.addf _ _ _ _ (fun j' hj' => ?_), val_main_v2_apply, idx_v2]
    rw [landing _ idx_is_zero j'] at hj'
    have e := congrFun (Option.some.inj hj') 2
    exact h0 (congrArg Fin.val e).symm

theorem ref_scaled (k : Fin 32) (g : Fin 4) (h : Fin 16) :
    val_main_v10 (F := Ideal) x0 x1 x2 (ix5 b l k g h) = scaled (arow64 x0 b l) (arow64 x1 b l) (arows64 x2 b l) k g h := by
  rw [val_main_v10_apply, ref_v5, val_main_v9_apply, val_main_v8_apply, val_main_v7_apply, val_main_v0_apply,
    val_main_v6_apply, val_main_cst_apply, idx_v8_v9, idx_v0]
  rfl

theorem ref_rowMax (h : Fin 16) :
    val_main_v11 (F := Ideal) x0 x1 x2 (ix3 b l h) = rowMax (arow64 x0 b l) (arow64 x1 b l) (arows64 x2 b l) h := by
  unfold val_main_v11
  rw [Host.reduce_eq_fold]
  refine (FoldReindex.fold_filter_eq_fold_univ (FloatOps.maximumf (F := Ideal) (φ := .f32)) _ _
    (Shape.ReducesTo.drop reducesTo_S8x2048x32x4x16_S8x2048x16_d2_3) (ix3 b l h)
    (fun kg : Fin 32 × Fin 4 => ix5 b l kg.1 kg.2 h) ?_ ?_).trans ?_
  · intro p q e
    have e2 : (ix5 b l p.1 p.2 h : S8x2048x32x4x16.Idx) 2 = (ix5 b l q.1 q.2 h : S8x2048x32x4x16.Idx) 2 := congrFun e 2
    have e3 : (ix5 b l p.1 p.2 h : S8x2048x32x4x16.Idx) 3 = (ix5 b l q.1 q.2 h : S8x2048x32x4x16.Idx) 3 := congrFun e 3
    exact Prod.ext e2 e3
  · intro i
    have d0 : ((Shape.ReducesTo.drop reducesTo_S8x2048x32x4x16_S8x2048x16_d2_3 i 0 : Fin 8) : Nat) = (i 0).val :=
      Shape.ReducesTo.drop_apply_val_of_eq _ i 0 0
    have d1 : ((Shape.ReducesTo.drop reducesTo_S8x2048x32x4x16_S8x2048x16_d2_3 i 1 : Fin 2048) : Nat) = (i 1).val :=
      Shape.ReducesTo.drop_apply_val_of_eq _ i 1 1
    have d2 : ((Shape.ReducesTo.drop reducesTo_S8x2048x32x4x16_S8x2048x16_d2_3 i 2 : Fin 16) : Nat) = (i 4).val :=
      Shape.ReducesTo.drop_apply_val_of_eq _ i 2 4
    constructor
    · intro e
      refine ⟨(i 2, i 3), funext fun a => Fin.ext ?_⟩
      have e0 : (Shape.ReducesTo.drop reducesTo_S8x2048x32x4x16_S8x2048x16_d2_3 i 0 : Nat) = b.val :=
        congrArg (fun j : S8x2048x16.Idx => (j 0).val) e
      have e1 : (Shape.ReducesTo.drop reducesTo_S8x2048x32x4x16_S8x2048x16_d2_3 i 1 : Nat) = l.val :=
        congrArg (fun j : S8x2048x16.Idx => (j 1).val) e
      have e2 : (Shape.ReducesTo.drop reducesTo_S8x2048x32x4x16_S8x2048x16_d2_3 i 2 : Nat) = h.val :=
        congrArg (fun j : S8x2048x16.Idx => (j 2).val) e
      match a with
      | ⟨0, _⟩ => show b.val = (i 0).val; omega
      | ⟨1, _⟩ => show l.val = (i 1).val; omega
      | ⟨2, _⟩ => rfl
      | ⟨3, _⟩ => rfl
      | ⟨4, _⟩ => show h.val = (i 4).val; omega
    · rintro ⟨kg, rfl⟩
      refine funext fun c => Fin.ext ?_
      match c with
      | ⟨0, _⟩ => exact d0
      | ⟨1, _⟩ => exact d1
      | ⟨2, _⟩ => exact d2
  · unfold rowMax
    refine congrArg (fun f => Finset.fold max ninf f Finset.univ) ?_
    exact funext fun kg => ref_scaled x0 x1 x2 b l kg.1 kg.2 h

theorem ref_weight (k : Fin 32) (g : Fin 4) (h : Fin 16) :
    val_main_v18 (F := Ideal) x0 x1 x2 x4 (ix5 b l k g h)
      = weight (arow64 x0 b l) (arow64 x1 b l) (arows64 x2 b l) (arows4 x4 b l) k g h := by
  rw [val_main_v18_apply, val_main_v17_apply, val_main_v15_apply, idx_v15_v17, val_main_v16_apply, val_main_v14_apply,
    ref_scaled, val_main_v13_apply, val_main_v12_apply, idx_v12_v13, ref_rowMax]
  rfl

theorem ref_mixed (k : Fin 32) (h : Fin 16) :
    val_main_v19 (F := Ideal) x0 x1 x2 x4 (ix4 b l k h)
      = mixed (arow64 x0 b l) (arow64 x1 b l) (arows64 x2 b l) (arows4 x4 b l) k h := by
  rw [val_main_v19_apply, val_main_cst_1_apply]
  show Ideal.ofBits .f32 0x00000000#32 + _ = _
  rw [Ideal.ofBits_zero_f32, zero_add]
  unfold mixed
  exact Finset.sum_congr rfl fun g _ => by rw [idx_v19, ref_weight]

theorem ref_coeff (k : Fin 32) (h : Fin 16) :
    val_main_v26 (F := Ideal) x0 x1 x2 x4 (ix4 b l k h)
      = coeff (arow64 x0 b l) (arow64 x1 b l) (arows64 x2 b l) (arows4 x4 b l) k h := by
  rw [val_main_v26_apply, ref_mixed, val_main_v25_apply, val_main_v24_apply, val_main_v22_apply, idx_v22_v25,
    val_main_v23_apply, val_main_cst_3_apply, val_main_v21_apply, val_main_cst_2_apply]
  show Ideal.div _ ((Ideal.ofBits .f32 0x00000000#32 + _) + eps) = _
  rw [Ideal.ofBits_zero_f32, zero_add]
  unfold coeff
  refine congrArg (fun s : EReal => Ideal.div (mixed (arow64 x0 b l) (arow64 x1 b l) (arows64 x2 b l) (arows4 x4 b l) k h) (s + eps)) ?_
  exact Finset.sum_congr rfl fun k' _ => by rw [val_main_v20_apply, idx_v21, ref_mixed]; rfl

theorem ref_readout (c : Fin 128) :
    val_main_v31 (F := Ideal) x0 x1 x2 x3 x4 (ix3 b l c)
      = readout (arow64 x0 b l) (arow64 x1 b l) (arows64 x2 b l) (arows128 x3 b l) (arows4 x4 b l)
          (⟨c.val / 16, by have := c.isLt; omega⟩ : Fin 8) (⟨c.val % 16, by omega⟩ : Fin 16) := by
  rw [val_main_v31_apply, idx_v31, val_main_v30_apply, val_main_cst_4_apply]
  show Ideal.ofBits .f32 0x00000000#32 + _ = _
  rw [Ideal.ofBits_zero_f32, zero_add]
  unfold readout
  exact Finset.sum_congr rfl fun k _ => by
    rw [idx_v30, val_main_v29_apply, val_main_v3_apply, idx_v3, val_main_v28_apply, val_main_v27_apply, idx_v27_v28, ref_coeff]
    rfl

end Stages

end Cert.RefRows

end
-- ==== Proof.RefArray.lean ====
/-
  The reference's two results are the arrays of `ArraySpec` of its arguments.
-/
import proofs.«169955_j1666447311232_1_alg».proof.Proof.RefRows
import proofs.«169955_j1666447311232_1_alg».proof.Proof.ArraySpec

noncomputable section

namespace Cert.RefArray

open Idealize.ShloMosaic Idealize.ShloMosaic.ValueIdx Cert.ReferenceIdeal Cert.ReferenceIdeal.Read Cert.RowSpec Cert.RefRows Cert.ArraySpec

variable (x0 x1 : (⟨S8x2048x64, .f32⟩ : BufTy).Contents (Elt Ideal)) (x2 : (⟨S8x2048x32x64, .f32⟩ : BufTy).Contents (Elt Ideal))
  (x3 : (⟨S8x2048x32x128, .f32⟩ : BufTy).Contents (Elt Ideal)) (x4 : (⟨S8x2048x32x4, .f32⟩ : BufTy).Contents (Elt Ideal))

/-- The reference's coefficient result. -/
theorem coeff_eq : val_main_v26 (F := Ideal) x0 x1 x2 x4 = coeffArr x0 x1 x2 x4 := by
  funext i
  obtain ⟨b, l, k, h, rfl⟩ : ∃ (b : Fin 8) (l : Fin 2048) (k : Fin 32) (h : Fin 16), i = ix4 b l k h :=
    ⟨i 0, i 1, i 2, i 3, eq_ix4 i⟩
  exact ref_coeff x0 x1 x2 x4 b l k h

/-- The reference's readout result. -/
theorem readout_eq : val_main_v31 (F := Ideal) x0 x1 x2 x3 x4 = readoutArr x0 x1 x2 x3 x4 := by
  funext i
  obtain ⟨b, l, c, rfl⟩ : ∃ (b : Fin 8) (l : Fin 2048) (c : Fin 128), i = ix3 b l c := ⟨i 0, i 1, i 2, eq_ix3 i⟩
  exact ref_readout x0 x1 x2 x3 x4 b l c

end Cert.RefArray

end
-- ==== Proof.lean ====
/- Graph-attention readout over 8 × 2048 positions: a tiled kernel against the whole-array reference, as extended reals.

   At each position (b, l) both programs compute, from that position's rows alone: the neighbour scores (the self score
   added into neighbour slot 0) scaled by the shifted temperature; their maximum over neighbours and heads; the graph
   weights times the exponential of score minus maximum, summed over heads; that sum divided by the sum over neighbours
   of its absolute values plus ε (the coefficients, the second result); and the neighbours' outputs weighted by the
   coefficients and summed over neighbours (the readout, the first result). The kernel does this on blocks of 256
   positions, one per grid point, and adds the self score through a mask (score + 0 elsewhere); the reference works on
   whole arrays and adds it by a scatter into slot 0. The two agree operation by operation: x + 0 = x, a maximum or a sum
   does not depend on the order of its terms, and the blocks tile the arrays. No finiteness is used.

   Both results are stated as the arrays of `ArraySpec` of the arguments (`Blocks.run` for the kernel, `RefArray` for
   the reference); the idealization changed nothing in the kernel, so that conjunct is trivial. -/
import proofs.«169955_j1666447311232_1_alg».proof.Defs
import proofs.«169955_j1666447311232_1_alg».proof.Proof.Gen.Kernel
import proofs.«169955_j1666447311232_1_alg».proof.Proof.Gen.Kernel.Skeleton
import proofs.«169955_j1666447311232_1_alg».proof.Proof.Gen.Kernel.Launch
import proofs.«169955_j1666447311232_1_alg».proof.Proof.Gen.Kernel.Points
import proofs.«169955_j1666447311232_1_alg».proof.Proof.Gen.Kernel.Frame
import proofs.«169955_j1666447311232_1_alg».proof.Proof.Gen.KernelIdeal
import proofs.«169955_j1666447311232_1_alg».proof.Proof.Gen.KernelIdeal.Skeleton
import proofs.«169955_j1666447311232_1_alg».proof.Proof.Gen.KernelIdeal.Launch
import proofs.«169955_j1666447311232_1_alg».proof.Proof.Gen.KernelIdeal.Points
import proofs.«169955_j1666447311232_1_alg».proof.Proof.Gen.KernelIdeal.Frame
import proofs.«169955_j1666447311232_1_alg».proof.Proof.Gen.ReferenceIdeal
import proofs.«169955_j1666447311232_1_alg».proof.Proof.Gen.KernelIdeal.Value
import proofs.«169955_j1666447311232_1_alg».proof.Proof.Gen.ReferenceIdeal.Run
import proofs.«169955_j1666447311232_1_alg».proof.Proof.Gen.ReferenceIdeal.Read
import proofs.«169955_j1666447311232_1_alg».proof.Proof.Gen.Pre_finite_inputs
import Idealize.ShloMosaic.Adequacy
import Idealize.ShloMosaic.Init

import proofs.«169955_j1666447311232_1_alg».proof.Proof.Blocks
import proofs.«169955_j1666447311232_1_alg».proof.Proof.RefArray

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the readout and coefficient arrays of the arguments, which agree. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v31_eq, Cert.RefArray.readout_eq, (hagree c).1, (hagree c).2.1,
      (hagree c).2.2.1, (hagree c).2.2.2.1, (hagree c).2.2.2.2]
  · rw [Cert.ReferenceIdeal.Read.val_main_v26_eq, Cert.RefArray.coeff_eq, (hagree c).1, (hagree c).2.1,
      (hagree c).2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
